-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x128 : Shape := ⟨3, ![4, 65536, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S4x65536x128 : S_.BroadcastsInDim S4x65536x128 (![] : Fin 0 → Fin S4x65536x128.rank)
  reducesTo_S4x65536x128_S_d0_1_2 : S4x65536x128.ReducesTo [0, 1, 2] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x65536x128 .f32) (main_arg1 : FVec F S384x128 .f32) (main_arg2 : FVec F S128 .f32) (main_arg3 : FVec F S128x128 .f32) (main_arg4 : FVec F S128 .f32) (main_arg5 : FVec F S128 .f32) (main_arg6 : FVec F S128 .f32) : IVec S_ 1 :=
  let main_v0 : FVec F S4x65536x128 .f32 := Host.absf main_arg0
  let main_cst : FVec F S_ .f32 := constant S_ .f32 0x7F800000#32
  let main_v1 : FVec F S4x65536x128 .f32 := broadcastInDim S4x65536x128 ![] bcast_S_S4x65536x128 main_cst
  let main_v2 : IVec S4x65536x128 1 := cmpf .olt main_v0 main_v1
  let main_c : IVec S_ 1 := constantI S_ 1 1#1
  let main_v3 : IVec S_ 1 := (fun x v => Host.reduce IntOp.andi x v reducesTo_S4x65536x128_S_d0_1_2 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S4x65536x128 : Shape := ⟨3, ![4, 65536, 128]⟩
abbrev S384x128 : Shape := ⟨2, ![384, 128]⟩
abbrev S128 : Shape := ⟨1, ![128]⟩
abbrev S128x128 : Shape := ⟨2, ![128, 128]⟩
abbrev S1x8x128 : Shape := ⟨3, ![1, 8, 128]⟩
abbrev S1x2048x128 : Shape := ⟨3, ![1, 2048, 128]⟩
abbrev S2048x128 : Shape := ⟨2, ![2048, 128]⟩
abbrev S8x128 : Shape := ⟨2, ![8, 128]⟩
abbrev S1x128 : Shape := ⟨2, ![1, 128]⟩
abbrev S2048x384 : Shape := ⟨2, ![2048, 384]⟩
abbrev S2048 : Shape := ⟨1, ![2048]⟩
abbrev S2048x1 : Shape := ⟨2, ![2048, 1]⟩

abbrev nBuf : Space → Nat
  | .hbm => 8
  | .vmem => 14
  | .smem => 0
  | _ => 0

abbrev bufTy : (tb : Table) → Fin (tcTables nBuf tb) → BufTy
  | .hbm, ⟨0, _⟩ => ⟨S4x65536x128, .f32⟩
  | .hbm, ⟨1, _⟩ => ⟨S384x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S4x65536x128, .f32⟩
  | .local _ .vmem, ⟨0, _⟩ => ⟨S1x8x128, .f32⟩
  | .local _ .vmem, ⟨1, _⟩ => ⟨S1x8x128, .f32⟩
  | .local _ .vmem, ⟨2, _⟩ => ⟨S1x2048x128, .f32⟩
  | .local _ .vmem, ⟨3, _⟩ => ⟨S1x2048x128, .f32⟩
  | .local _ .vmem, ⟨4, _⟩ => ⟨S1x8x128, .f32⟩
  | .local _ .vmem, ⟨5, _⟩ => ⟨S1x8x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S1x2048x128, .f32⟩
  | .local _ .vmem, ⟨13, _⟩ => ⟨S1x2048x128, .f32⟩
  | _, _ => ⟨S4x65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c8192_i32 : BitVec 32 := 8192#32
  let c0_i32 : BitVec 32 := 0#32
  let v2 : BitVec 1 := Scalar.cmpi .eq c8192_i32 c0_i32
  let c1_i32_0 : BitVec 32 := 1#32
  let v3 : BitVec 32 := Scalar.select v2 c1_i32_0 c8192_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![arg0.toNat, v11.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c8192_i32 : BitVec 32 := 8192#32
  let c0_i32 : BitVec 32 := 0#32
  let v2 : BitVec 1 := Scalar.cmpi .eq c8192_i32 c0_i32
  let c1_i32_0 : BitVec 32 := 1#32
  let v3 : BitVec 32 := Scalar.select v2 c1_i32_0 c8192_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![arg0.toNat, v11.toNat, c0_i32_4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  slices_S8x128_o7_0_S1x128 : S8x128.Slices ![7, 0] S1x128
  slices_S8x128_o0_0_S1x128 : S8x128.Slices ![0, 0] S1x128
  iota_S2048x128_d0_w32 : S2048x128.Iotas .tc 32 [0]
  rotates_S2048x128_d0 : S2048x128.Rotates 0 none
  shapeCasts_S1x128_S1x128 : S1x128.ShapeCasts S1x128
  broadcasts_S1x128_S2048x128 : S1x128.Broadcasts S2048x128
  concatenates_S2048x128_S2048x128_S2048x128_S2048x384_d1 : Shape.Concatenates [S2048x128, S2048x128, S2048x128] S2048x384 1
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  inb_S128x128_S128x128_0_0 : ∀ a, (![0, 0] : Fin 2 → Nat) a + S128x128.size a ≤ S128x128.size a
  h_S128x128 : 0 < S128x128.numel
  reduces_S2048x128_S2048 : S2048x128.Reduces [1] S2048
  shapeCasts_S2048_S2048x1 : S2048.ShapeCasts S2048x1
  broadcasts_S2048x1_S2048x128 : S2048x1.Broadcasts S2048x128
  shapeCasts_S2048x128_S1x2048x128 : S2048x128.ShapeCasts S1x2048x128
  dot_S2048x384_S384x128_S2048x128_1_0_0_1_n_n_wf : DotDims.WF S2048x384 S384x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128.size a ≤ S4x65536x128.size a
  hwx0_0 : ∀ i : grid0.Coords, EltTy.bits .f32 = 32 ∨ (Rect.block (s := S4x65536x128) S1x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x65536x128.size a
  hwx0_1 : ∀ i : grid0.Coords, EltTy.bits .f32 = 32 ∨ (Rect.block (s := S4x65536x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x65536x128.size a
  hwx0_2 : ∀ i : grid0.Coords, EltTy.bits .f32 = 32 ∨ (Rect.block (s := S4x65536x128) S1x8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x128.size a ≤ S4x65536x128.size a
  hwx0_9 : ∀ i : grid0.Coords, EltTy.bits .f32 = 32 ∨ (Rect.block (s := S4x65536x128) S1x2048x128.size (cc0_transform_9 i) (hinb0_9 i)).WholeWords (EltTy.packing .f32)

variable [Facts₀]

def dot_S2048x384_S384x128_S2048x128_1_0_0_1_n_n : DotDims S2048x384 S384x128 S2048x128 where
  lhsContracting := [1]
  rhsContracting := [0]
  lhsNonContracting := [0]
  rhsNonContracting := [1]
  lhsBatch := []
  rhsBatch := []
  wf := dot_S2048x384_S384x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S1x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x65536x128 : Shape := ⟨3, ![4, 65536, 128]⟩
abbrev S384x128 : Shape := ⟨2, ![384, 128]⟩
abbrev S128 : Shape := ⟨1, ![128]⟩
abbrev S128x128 : Shape := ⟨2, ![128, 128]⟩
abbrev S4x1x128 : Shape := ⟨3, ![4, 1, 128]⟩
abbrev S4x65535x128 : Shape := ⟨3, ![4, 65535, 128]⟩
abbrev S4x65536x384 : Shape := ⟨3, ![4, 65536, 384]⟩
abbrev S1x1x128 : Shape := ⟨3, ![1, 1, 128]⟩
abbrev S_ : Shape := ⟨0, ![]⟩
abbrev S4x65536 : Shape := ⟨2, ![4, 65536]⟩
abbrev S4x65536x1 : Shape := ⟨3, ![4, 65536, 1]⟩

abbrev nBuf : Space → Nat
  | .hbm => 73
  | .vmem => 0
  | .smem => 0
  | _ => 0

abbrev bufTy : (tb : Table) → Fin (tcTables nBuf tb) → BufTy
  | .hbm, ⟨0, _⟩ => ⟨S4x65536x128, .f32⟩
  | .hbm, ⟨1, _⟩ => ⟨S384x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S4x1x128, .f32⟩
  | .hbm, ⟨8, _⟩ => ⟨S4x65535x128, .f32⟩
  | .hbm, ⟨9, _⟩ => ⟨S4x65536x128, .f32⟩
  | .hbm, ⟨10, _⟩ => ⟨S4x65535x128, .f32⟩
  | .hbm, ⟨11, _⟩ => ⟨S4x1x128, .f32⟩
  | .hbm, ⟨12, _⟩ => ⟨S4x65536x128, .f32⟩
  | .hbm, ⟨13, _⟩ => ⟨S4x65536x384, .f32⟩
  | .hbm, ⟨14, _⟩ => ⟨S4x65536x128, .f32⟩
  | .hbm, ⟨15, _⟩ => ⟨S1x1x128, .f32⟩
  | .hbm, ⟨16, _⟩ => ⟨S4x65536x128, .f32⟩
  | .hbm, ⟨17, _⟩ => ⟨S4x65536x128, .f32⟩
  | .hbm, ⟨18, _⟩ => ⟨S_, .f32⟩
  | .hbm, ⟨19, _⟩ => ⟨S4x65536x128, .f32⟩
  | .hbm, ⟨20, _⟩ => ⟨S4x65536x128, .f32⟩
  | .hbm, ⟨21, _⟩ => ⟨S4x65536x128, .f32⟩
  | .hbm, ⟨22, _⟩ => ⟨S1x1x128, .f32⟩
  | .hbm, ⟨23, _⟩ => ⟨S4x65536x128, .f32⟩
  | .hbm, ⟨24, _⟩ => ⟨S4x65536x128, .f32⟩
  | .hbm, ⟨25, _⟩ => ⟨S4x65536x128, .f32⟩
  | .hbm, ⟨26, _⟩ => ⟨S_, .f32⟩
  | .hbm, ⟨27, _⟩ => ⟨S4x65536, .f32⟩
  | .hbm, ⟨28, _⟩ => ⟨S4x65536x1, .f32⟩
  | .hbm, ⟨29, _⟩ => ⟨S_, .f32⟩
  | .hbm, ⟨30, _⟩ => ⟨S4x65536x1, .f32⟩
  | .hbm, ⟨31, _⟩ => ⟨S4x65536x1, .f32⟩
  | .hbm, ⟨32, _⟩ => ⟨S_, .i32⟩
  | .hbm, ⟨33, _⟩ => ⟨S_, .f32⟩
  | .hbm, ⟨34, _⟩ => ⟨S4x65536, .f32⟩
  | .hbm, ⟨35, _⟩ => ⟨S4x65536x1, .f32⟩
  | .hbm, ⟨36, _⟩ => ⟨S_, .f32⟩
  | .hbm, ⟨37, _⟩ => ⟨S4x65536x1, .f32⟩
  | .hbm, ⟨38, _⟩ => ⟨S4x65536x1, .f32⟩
  | .hbm, ⟨39, _⟩ => ⟨S4x65536x128, .f32⟩
  | .hbm, ⟨40, _⟩ => ⟨S4x65536x128, .f32⟩
  | .hbm, ⟨41, _⟩ => ⟨S4x65536x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4x65536, .f32⟩
  | .hbm, ⟨47, _⟩ => ⟨S4x65536x1, .f32⟩
  | .hbm, ⟨48, _⟩ => ⟨S4x65536x1, .f32⟩
  | .hbm, ⟨49, _⟩ => ⟨S4x65536x1, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S4x65536x1, .f32⟩
  | .hbm, ⟨55, _⟩ => ⟨S4x65536x1, .f32⟩
  | .hbm, ⟨56, _⟩ => ⟨S4x65536x128, .f32⟩
  | .hbm, ⟨57, _⟩ => ⟨S4x65536x128, .f32⟩
  | .hbm, ⟨58, _⟩ => ⟨S_, .f32⟩
  | .hbm, ⟨59, _⟩ => ⟨S4x65536x1, .f32⟩
  | .hbm, ⟨60, _⟩ => ⟨S4x65536x1, .f32⟩
  | .hbm, ⟨61, _⟩ => ⟨S4x65536x1, .f32⟩
  | .hbm, ⟨62, _⟩ => ⟨S4x65536x128, .f32⟩
  | .hbm, ⟨63, _⟩ => ⟨S4x65536x128, .f32⟩
  | .hbm, ⟨64, _⟩ => ⟨S1x1x128, .f32⟩
  | .hbm, ⟨65, _⟩ => ⟨S4x65536x128, .f32⟩
  | .hbm, ⟨66, _⟩ => ⟨S4x65536x128, .f32⟩
  | .hbm, ⟨67, _⟩ => ⟨S1x1x128, .f32⟩
  | .hbm, ⟨68, _⟩ => ⟨S4x65536x128, .f32⟩
  | .hbm, ⟨69, _⟩ => ⟨S4x65536x128, .f32⟩
  | .hbm, ⟨70, _⟩ => ⟨S_, .f32⟩
  | .hbm, ⟨71, _⟩ => ⟨S4x65536x128, .f32⟩
  | .hbm, ⟨72, _⟩ => ⟨S4x65536x128, .f32⟩
  | _, _ => ⟨S4x65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call2_cst : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_call3_cst : Ref sig .tc := ⟨.hbm, 33, rfl⟩
abbrev main_call3_v0 : Ref sig .tc := ⟨.hbm, 34, rfl⟩
abbrev main_call3_v1 : Ref sig .tc := ⟨.hbm, 35, rfl⟩
abbrev main_call3_cst_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_cst_1 : Ref sig .tc := ⟨.hbm, 43, rfl⟩
abbrev main_call3_v8 : Ref sig .tc := ⟨.hbm, 44, rfl⟩
abbrev main_call3_cst_2 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_v12 : Ref sig .tc := ⟨.hbm, 49, rfl⟩
abbrev main_call3_cst_3 : Ref sig .tc := ⟨.hbm, 50, rfl⟩
abbrev main_call3_v13 : Ref sig .tc := ⟨.hbm, 51, rfl⟩
abbrev main_call3_cst_4 : Ref sig .tc := ⟨.hbm, 52, rfl⟩
abbrev main_call3_call0_v0 : Ref sig .tc := ⟨.hbm, 53, rfl⟩
abbrev main_call3_call0_v1 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_call4_cst : Ref sig .tc := ⟨.hbm, 70, rfl⟩
abbrev main_call4_v0 : Ref sig .tc := ⟨.hbm, 71, rfl⟩
abbrev main_v31 : Ref sig .tc := ⟨.hbm, 72, rfl⟩

abbrev nD : Nat := 1
abbrev τ : Topo := Topo.v7x

variable {F : FTy → Type} [FloatOps F]

class Facts₀ : Prop where
  slices_S4x65536x128_S4x1x128_0_65535_0 : S4x65536x128.Slices ![0, 65535, 0] S4x1x128
  slices_S4x65536x128_S4x65535x128_0_0_0 : S4x65536x128.Slices ![0, 0, 0] S4x65535x128
  concatenates_S4x1x128_S4x65535x128_S4x65536x128_d1 : Shape.Concatenates [S4x1x128, S4x65535x128] S4x65536x128 1
  slices_S4x65536x128_S4x65535x128_0_1_0 : S4x65536x128.Slices ![0, 1, 0] S4x65535x128
  slices_S4x65536x128_S4x1x128_0_0_0 : S4x65536x128.Slices ![0, 0, 0] S4x1x128
  concatenates_S4x65535x128_S4x1x128_S4x65536x128_d1 : Shape.Concatenates [S4x65535x128, S4x1x128] S4x65536x128 1
  concatenates_S4x65536x128_S4x65536x128_S4x65536x128_S4x65536x384_d2 : Shape.Concatenates [S4x65536x128, S4x65536x128, S4x65536x128] S4x65536x384 2
  bcast_S128_S1x1x128_2 : S128.BroadcastsInDim S1x1x128 (![2] : Fin 1 → Fin S1x1x128.rank)
  bcast_S1x1x128_S4x65536x128_0_1_2 : S1x1x128.BroadcastsInDim S4x65536x128 (![0, 1, 2] : Fin 3 → Fin S4x65536x128.rank)
  bcast_S_S4x65536x128 : S_.BroadcastsInDim S4x65536x128 (![] : Fin 0 → Fin S4x65536x128.rank)
  reducesTo_S4x65536x128_S4x65536_d2 : S4x65536x128.ReducesTo [2] S4x65536
  h_S_ : 0 < S_.numel
  bcast_S4x65536_S4x65536x1_0_1 : S4x65536.BroadcastsInDim S4x65536x1 (![0, 1] : Fin 2 → Fin S4x65536x1.rank)
  bcast_S_S4x65536x1 : S_.BroadcastsInDim S4x65536x1 (![] : Fin 0 → Fin S4x65536x1.rank)
  bcast_S4x65536x1_S4x65536x128_0_1_2 : S4x65536x1.BroadcastsInDim S4x65536x128 (![0, 1, 2] : Fin 3 → Fin S4x65536x128.rank)
  dot_S4x65536x384_S384x128_S4x65536x128_2_0_01_1_n_n_wf : DotDims.WF S4x65536x384 S384x128 S4x65536x128 [2] [0] [0, 1] [1] [] []
  dot_S4x65536x128_S128x128_S4x65536x128_2_0_01_1_n_n_wf : DotDims.WF S4x65536x128 S128x128 S4x65536x128 [2] [0] [0, 1] [1] [] []

variable [Facts₀]

def dot_S4x65536x384_S384x128_S4x65536x128_2_0_01_1_n_n : DotDims S4x65536x384 S384x128 S4x65536x128 where
  lhsContracting := [2]
  rhsContracting := [0]
  lhsNonContracting := [0, 1]
  rhsNonContracting := [1]
  lhsBatch := []
  rhsBatch := []
  wf := dot_S4x65536x384_S384x128_S4x65536x128_2_0_01_1_n_n_wf
def dot_S4x65536x128_S128x128_S4x65536x128_2_0_01_1_n_n : DotDims S4x65536x128 S128x128 S4x65536x128 where
  lhsContracting := [2]
  rhsContracting := [0]
  lhsNonContracting := [0, 1]
  rhsNonContracting := [1]
  lhsBatch := []
  rhsBatch := []
  wf := dot_S4x65536x128_S128x128_S4x65536x128_2_0_01_1_n_n_wf

class Facts : Prop extends Facts₀ where

variable [Facts]
-- ==== Proof.KBBody.lean ====
/-
  The kernel's body as a triple, for any float instance.

  The body reads nine staged blocks — the eight rows before the tile, the tile of 2048 rows, the eight rows
  after it, and the six parameter arrays whole — and overwrites the whole output tile with one value computed
  from them.  Held: each input staging buffer whole at its contents, the output staging buffer whole at anything.
  Returned: the inputs as they were and the output buffer at that one value, written as the canonical contents of
  a buffer after one store that covers it.
-/
import proofs.«161234_j46815143526781_2_alg».proof.Proof.Gen.Kernel.Launch
import proofs.«161234_j46815143526781_2_alg».proof.Proof.Gen.Kernel.Skeleton
import proofs.«161234_j46815143526781_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry and the windows' blocks -/

/-- A core's buffers when the region is entered: as launched (the program is the region alone). -/
abbrev V (c : Dev nD) (b : Ref sig .tc) : Buf (Elt F) ((c : Thread nD τ).loc b) := m ((c : Thread nD τ).loc b)

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The whole-buffer rectangles the body loads and stores through -/

abbrev rT : Rect S1x2048x128 := Rect.unit (s := S1x2048x128) ![0, 0, 0] S1x2048x128.size inb_S1x2048x128_S1x2048x128_0_0_0
abbrev rE : Rect S1x8x128 := Rect.unit (s := S1x8x128) ![0, 0, 0] S1x8x128.size inb_S1x8x128_S1x8x128_0_0_0
abbrev rW1 : Rect S384x128 := Rect.unit (s := S384x128) ![0, 0] S384x128.size inb_S384x128_S384x128_0_0
abbrev rW2 : Rect S128x128 := Rect.unit (s := S128x128) ![0, 0] S128x128.size inb_S128x128_S128x128_0_0
abbrev rB : Rect S128 := Rect.unit (s := S128) ![0] S128.size inb_S128_S128_0

/-! ## What the body leaves in the output window's buffer -/

/-- The output staging buffer after the body, from the nine input blocks: its one store, of the payload of the loads. -/
def outT (x0 : Vec F S1x8x128 .f32) (x1 : Vec F S1x2048x128 .f32) (x2 : Vec F S1x8x128 .f32) (x3 : Vec F S384x128 .f32)
    (x4 : Vec F S128 .f32) (x5 : Vec F S128x128 .f32) (x6 x7 x8 : Vec F S128 .f32) : Vec F S1x2048x128 .f32 :=
  View.canon [⟨rT, k0_pay1 (k0_pay2 (View.ld x1 rT))
      (k0_pay3 (View.ld x1 rT) (View.ld x0 rE) (View.ld x2 rE) (View.ld x3 rW1) (View.ld x4 rB) (View.ld x5 rW2))
      (View.ld x6 rB) (View.ld x7 rB) (View.ld x8 rB)⟩]

/-- The one store is of the whole buffer, so it covers it. -/
theorem coverT (p0 : Vec F S1x2048x128 .f32) (y : S1x2048x128.Idx) :
    ∃ pc ∈ ([⟨rT, p0⟩] : List (View.Piece (Elt F) S1x2048x128 .f32)), y ∈ pc.1.set :=
  View.cover_of_tiled [⟨rT, p0⟩] S1x2048x128.size (by rfl) y

/-! ## The body's triple -/

set_option maxHeartbeats 4000000 in
/-- The body on whole staging memrefs, the inputs' at contents x0 … x8 and the output's at anything, runs to the
    continuation holding the inputs' as they were and the output's at outT of the inputs'. -/
theorem sound_kernel (c : Dev nD) (E : Set ℕ) (i : grid0.Coords)
    (arg2 : Memref sig .tc .vmem S1x8x128 .f32) (harg2 : arg2.IsWhole) (arg3 : Memref sig .tc .vmem S1x2048x128 .f32) (harg3 : arg3.IsWhole) (arg4 : Memref sig .tc .vmem S1x8x128 .f32) (harg4 : arg4.IsWhole) (arg5 : Memref sig .tc .vmem S384x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S1x2048x128 .f32) (harg11 : arg11.IsWhole)
    (x0 : Vec F S1x8x128 .f32) (x1 : Vec F S1x2048x128 .f32) (x2 : Vec F S1x8x128 .f32) (x3 : Vec F S384x128 .f32) (x4 : Vec F S128 .f32) (x5 : Vec F S128x128 .f32) (x6 : Vec F S128 .f32) (x7 : Vec F S128 .f32) (x8 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outT x0 x1 x2 x3 x4 x5 x6 x7 x8)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (coverT _)

end Cert.Kernel.Hand

end
-- ==== Proof.KBObl.lean ====
/-
  The proof data of the one pipeline and its body obligation, for any float instance.

  Three input windows read the same array x — the eight rows before the tile, the tile, the eight rows after — so the
  array's full share is dealt among them: the left half to the first, and the two halves of the right half to the
  other two.  Every input window's staging buffer holds its block of the array at every grid point, fetched there or
  carried over; the output window's buffer is left at the body's one stored value and written back at every point.
-/
import proofs.«161234_j46815143526781_2_alg».proof.Proof.KBBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every input's staging buffer holds its block -/

theorem beforeIn0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeIn1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeIn2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeIn3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeIn4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem beforeIn5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem beforeIn6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem beforeIn7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem beforeIn8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input's buffer at its block and the output's at the body's
    stored value; the invariant the core's scoped buffers that are no staging buffer (there are none), untouched; nothing owed; the array x held
    at three shares that make up the whole, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outT (iblk m c 0 t) (iblk m c 1 t) (iblk m c 2 t) (iblk m c 3 t) (iblk m c 4 t) (iblk m c 5 t) (iblk m c 6 t) (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t
    = outT (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  beforeIn0 m (dats m 0 c) (A_eq m c 0) (after0 m c) t d
theorem before1 (c : Dev nD) (t : Fin cfg0.N) (d) : (dats m 0 c).before 1 t d = iblk m c 1 t :=
  beforeIn1 m (dats m 0 c) (A_eq m c 1) (after1 m c) t d
theorem before2 (c : Dev nD) (t : Fin cfg0.N) (d) : (dats m 0 c).before 2 t d = iblk m c 2 t :=
  beforeIn2 m (dats m 0 c) (A_eq m c 2) (after2 m c) t d
theorem before3 (c : Dev nD) (t : Fin cfg0.N) (d) : (dats m 0 c).before 3 t d = iblk m c 3 t :=
  beforeIn3 m (dats m 0 c) (A_eq m c 3) (after3 m c) t d
theorem before4 (c : Dev nD) (t : Fin cfg0.N) (d) : (dats m 0 c).before 4 t d = iblk m c 4 t :=
  beforeIn4 m (dats m 0 c) (A_eq m c 4) (after4 m c) t d
theorem before5 (c : Dev nD) (t : Fin cfg0.N) (d) : (dats m 0 c).before 5 t d = iblk m c 5 t :=
  beforeIn5 m (dats m 0 c) (A_eq m c 5) (after5 m c) t d
theorem before6 (c : Dev nD) (t : Fin cfg0.N) (d) : (dats m 0 c).before 6 t d = iblk m c 6 t :=
  beforeIn6 m (dats m 0 c) (A_eq m c 6) (after6 m c) t d
theorem before7 (c : Dev nD) (t : Fin cfg0.N) (d) : (dats m 0 c).before 7 t d = iblk m c 7 t :=
  beforeIn7 m (dats m 0 c) (A_eq m c 7) (after7 m c) t d
theorem before8 (c : Dev nD) (t : Fin cfg0.N) (d) : (dats m 0 c).before 8 t d = iblk m c 8 t :=
  beforeIn8 m (dats m 0 c) (A_eq m c 8) (after8 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBRun.lean ====
/-
  The launch, the run and the frame of the kernel's program, for any float instance.

  The program is one region.  At its entry the core holds each of its eight unscoped buffers whole; the array x's
  points-to is split along its share into the three parts its three windows hold, every other array goes to its one
  window whole.  The region rule then gives: every weakly fair execution terminates, every window's array ends at what
  the proof data computes — an input array at its entry contents, the output array at its entry contents overwritten
  block by block by what the body left at each point.
-/
import proofs.«161234_j46815143526781_2_alg».proof.Proof.KBObl
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt to the windows -/

/-- One window's array at entry, from the buffer behind it at the window's share. -/
theorem arr_of_buf (c : Dev nD) (w : Fin cfg0.W) :
    (((c.tc : Thread nD τ).loc (Pipeline.arrRef spec0 w)) ↦{(dats m 0 c).share w} V m c (Pipeline.arrRef spec0 w) : sProp 𝕄)
      ⊢ ((cfg0.win w).arr.view.loc (c.tc : Thread nD τ) ↦[(cfg0.win w).arr.view.set]{(dats m 0 c).share w} (dats m 0 c).arrAt w 0) := by
  rw [(arr_whole0 w).set_eq_univ]
  exact Entails.of_eq rfl

/-- The buffers behind the windows' arrays, one by one: the seven arguments and the result. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_v0) ↦{fullShare} V m c main_v0)) :=
  bigSep_eq_bigSepL_of_eq [main_arg0, main_arg1, main_arg2, main_arg3, main_arg4, main_arg5, main_arg6, main_v0] (by decide) (by decide) _

/-- The buffers behind the windows' arrays, each whole, make the windows' arrays at their shares: the array x's
    points-to splits along its share into its three windows' parts, every other buffer goes to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  iintro ⟨H0, H1, H2, H3, H4, H5, H6, H7⟩
  ihave H0s := (pointsTo_share (PosShare.mem_left_op_right fullShare)).1 $$ H0
  icases H0s with ⟨Ha, Hr⟩
  ihave Hrs := (pointsTo_share (PosShare.mem_left_op_right fullShare.right)).1 $$ Hr
  icases Hrs with ⟨Hb, Hc⟩
  isplitl [Ha]; · iapply (arr_of_buf m c 0); iexact Ha
  isplitl [Hb]; · iapply (arr_of_buf m c 1); iexact Hb
  isplitl [Hc]; · iapply (arr_of_buf m c 2); iexact Hc
  isplitl [H1]; · iapply (arr_of_buf m c 3); iexact H1
  isplitl [H2]; · iapply (arr_of_buf m c 4); iexact H2
  isplitl [H3]; · iapply (arr_of_buf m c 5); iexact H3
  isplitl [H4]; · iapply (arr_of_buf m c 6); iexact H4
  isplitl [H5]; · iapply (arr_of_buf m c 7); iexact H5
  isplitl [H6]; · iapply (arr_of_buf m c 8); iexact H6
  iapply (arr_of_buf m c 9); iexact H7

/-! ## The run -/

/-- Every window's array ends at what the proof data computes after the last write-back. -/
def QC : PUnit × MemSt nD τ sig (Elt F) → Prop := fun r =>
  ∀ (c : Dev nD) (w : Fin cfg0.W), r.2.mem ((cfg0.win w).arr.view.loc (c.tc : Thread nD τ)) = (dats m 0 c).arrAt w cfg0.N

/-- From any memory with zero counters every weakly fair execution of the program terminates, faulting nowhere, and
    every window's array ends at the proof data's final contents. -/
theorem run_main : θ_run defs (onTc (τ := τ) (main (F := F))) ⟨m, fun _ => 0, ρ⟩ (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := Entails.rfl)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last cfg0.N) = Pipeline.scopedRest (Ix := Unit) (Name := ℕ) (U := UR sig nD τ) (Lvl := ℕ) (Val := Elt F) spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- An input window's array ends as launched. -/
theorem kept (c : Dev nD) (w : Fin cfg0.W) (hw : (cfg0.win w).isOut = false) (n : Nat) :
    (dats m 0 c).arrAt w n = V m c (Pipeline.arrRef spec0 w) :=
  ((dats m 0 c).arrAt_in w hw n).trans (A_eq m c w)

/-- The run with the result array named and the argument arrays unchanged. -/
theorem run_out : θ_run defs (onTc (τ := τ) (main (F := F))) ⟨m, fun _ => 0, ρ⟩ (fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c 9, (h c 1).trans (kept m c 1 rfl _), (h c 3).trans (kept m c 3 rfl _), (h c 4).trans (kept m c 4 rfl _), (h c 5).trans (kept m c 5 rfl _), (h c 6).trans (kept m c 6 rfl _), (h c 7).trans (kept m c 7 rfl _), (h c 8).trans (kept m c 8 rfl _)⟩) (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_out m ρ)

end Cert.Kernel.Hand

end
-- ==== Proof.KIBody.lean ====
/-
  The kernel's body as a triple, for any float instance.

  The body reads nine staged blocks — the eight rows before the tile, the tile of 2048 rows, the eight rows
  after it, and the six parameter arrays whole — and overwrites the whole output tile with one value computed
  from them.  Held: each input staging buffer whole at its contents, the output staging buffer whole at anything.
  Returned: the inputs as they were and the output buffer at that one value, written as the canonical contents of
  a buffer after one store that covers it.
-/
import proofs.«161234_j46815143526781_2_alg».proof.Proof.Gen.KernelIdeal.Launch
import proofs.«161234_j46815143526781_2_alg».proof.Proof.Gen.KernelIdeal.Skeleton
import proofs.«161234_j46815143526781_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry and the windows' blocks -/

/-- A core's buffers when the region is entered: as launched (the program is the region alone). -/
abbrev V (c : Dev nD) (b : Ref sig .tc) : Buf (Elt F) ((c : Thread nD τ).loc b) := m ((c : Thread nD τ).loc b)

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The whole-buffer rectangles the body loads and stores through -/

abbrev rT : Rect S1x2048x128 := Rect.unit (s := S1x2048x128) ![0, 0, 0] S1x2048x128.size inb_S1x2048x128_S1x2048x128_0_0_0
abbrev rE : Rect S1x8x128 := Rect.unit (s := S1x8x128) ![0, 0, 0] S1x8x128.size inb_S1x8x128_S1x8x128_0_0_0
abbrev rW1 : Rect S384x128 := Rect.unit (s := S384x128) ![0, 0] S384x128.size inb_S384x128_S384x128_0_0
abbrev rW2 : Rect S128x128 := Rect.unit (s := S128x128) ![0, 0] S128x128.size inb_S128x128_S128x128_0_0
abbrev rB : Rect S128 := Rect.unit (s := S128) ![0] S128.size inb_S128_S128_0

/-! ## What the body leaves in the output window's buffer -/

/-- The output staging buffer after the body, from the nine input blocks: its one store, of the payload of the loads. -/
def outT (x0 : Vec F S1x8x128 .f32) (x1 : Vec F S1x2048x128 .f32) (x2 : Vec F S1x8x128 .f32) (x3 : Vec F S384x128 .f32)
    (x4 : Vec F S128 .f32) (x5 : Vec F S128x128 .f32) (x6 x7 x8 : Vec F S128 .f32) : Vec F S1x2048x128 .f32 :=
  View.canon [⟨rT, k0_pay1 (k0_pay2 (View.ld x1 rT))
      (k0_pay3 (View.ld x1 rT) (View.ld x0 rE) (View.ld x2 rE) (View.ld x3 rW1) (View.ld x4 rB) (View.ld x5 rW2))
      (View.ld x6 rB) (View.ld x7 rB) (View.ld x8 rB)⟩]

/-- The one store is of the whole buffer, so it covers it. -/
theorem coverT (p0 : Vec F S1x2048x128 .f32) (y : S1x2048x128.Idx) :
    ∃ pc ∈ ([⟨rT, p0⟩] : List (View.Piece (Elt F) S1x2048x128 .f32)), y ∈ pc.1.set :=
  View.cover_of_tiled [⟨rT, p0⟩] S1x2048x128.size (by rfl) y

/-! ## The body's triple -/

set_option maxHeartbeats 4000000 in
/-- The body on whole staging memrefs, the inputs' at contents x0 … x8 and the output's at anything, runs to the
    continuation holding the inputs' as they were and the output's at outT of the inputs'. -/
theorem sound_kernel (c : Dev nD) (E : Set ℕ) (i : grid0.Coords)
    (arg2 : Memref sig .tc .vmem S1x8x128 .f32) (harg2 : arg2.IsWhole) (arg3 : Memref sig .tc .vmem S1x2048x128 .f32) (harg3 : arg3.IsWhole) (arg4 : Memref sig .tc .vmem S1x8x128 .f32) (harg4 : arg4.IsWhole) (arg5 : Memref sig .tc .vmem S384x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S1x2048x128 .f32) (harg11 : arg11.IsWhole)
    (x0 : Vec F S1x8x128 .f32) (x1 : Vec F S1x2048x128 .f32) (x2 : Vec F S1x8x128 .f32) (x3 : Vec F S384x128 .f32) (x4 : Vec F S128 .f32) (x5 : Vec F S128x128 .f32) (x6 : Vec F S128 .f32) (x7 : Vec F S128 .f32) (x8 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outT x0 x1 x2 x3 x4 x5 x6 x7 x8)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (coverT _)

end Cert.KernelIdeal.Hand

end
-- ==== Proof.KIObl.lean ====
/-
  The proof data of the one pipeline and its body obligation, for any float instance.

  Three input windows read the same array x — the eight rows before the tile, the tile, the eight rows after — so the
  array's full share is dealt among them: the left half to the first, and the two halves of the right half to the
  other two.  Every input window's staging buffer holds its block of the array at every grid point, fetched there or
  carried over; the output window's buffer is left at the body's one stored value and written back at every point.
-/
import proofs.«161234_j46815143526781_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every input's staging buffer holds its block -/

theorem beforeIn0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeIn1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeIn2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeIn3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeIn4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem beforeIn5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem beforeIn6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem beforeIn7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem beforeIn8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input's buffer at its block and the output's at the body's
    stored value; the invariant the core's scoped buffers that are no staging buffer (there are none), untouched; nothing owed; the array x held
    at three shares that make up the whole, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outT (iblk m c 0 t) (iblk m c 1 t) (iblk m c 2 t) (iblk m c 3 t) (iblk m c 4 t) (iblk m c 5 t) (iblk m c 6 t) (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t
    = outT (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  beforeIn0 m (dats m 0 c) (A_eq m c 0) (after0 m c) t d
theorem before1 (c : Dev nD) (t : Fin cfg0.N) (d) : (dats m 0 c).before 1 t d = iblk m c 1 t :=
  beforeIn1 m (dats m 0 c) (A_eq m c 1) (after1 m c) t d
theorem before2 (c : Dev nD) (t : Fin cfg0.N) (d) : (dats m 0 c).before 2 t d = iblk m c 2 t :=
  beforeIn2 m (dats m 0 c) (A_eq m c 2) (after2 m c) t d
theorem before3 (c : Dev nD) (t : Fin cfg0.N) (d) : (dats m 0 c).before 3 t d = iblk m c 3 t :=
  beforeIn3 m (dats m 0 c) (A_eq m c 3) (after3 m c) t d
theorem before4 (c : Dev nD) (t : Fin cfg0.N) (d) : (dats m 0 c).before 4 t d = iblk m c 4 t :=
  beforeIn4 m (dats m 0 c) (A_eq m c 4) (after4 m c) t d
theorem before5 (c : Dev nD) (t : Fin cfg0.N) (d) : (dats m 0 c).before 5 t d = iblk m c 5 t :=
  beforeIn5 m (dats m 0 c) (A_eq m c 5) (after5 m c) t d
theorem before6 (c : Dev nD) (t : Fin cfg0.N) (d) : (dats m 0 c).before 6 t d = iblk m c 6 t :=
  beforeIn6 m (dats m 0 c) (A_eq m c 6) (after6 m c) t d
theorem before7 (c : Dev nD) (t : Fin cfg0.N) (d) : (dats m 0 c).before 7 t d = iblk m c 7 t :=
  beforeIn7 m (dats m 0 c) (A_eq m c 7) (after7 m c) t d
theorem before8 (c : Dev nD) (t : Fin cfg0.N) (d) : (dats m 0 c).before 8 t d = iblk m c 8 t :=
  beforeIn8 m (dats m 0 c) (A_eq m c 8) (after8 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The launch, the run and the frame of the kernel's program, for any float instance.

  The program is one region.  At its entry the core holds each of its eight unscoped buffers whole; the array x's
  points-to is split along its share into the three parts its three windows hold, every other array goes to its one
  window whole.  The region rule then gives: every weakly fair execution terminates, every window's array ends at what
  the proof data computes — an input array at its entry contents, the output array at its entry contents overwritten
  block by block by what the body left at each point.
-/
import proofs.«161234_j46815143526781_2_alg».proof.Proof.KIObl
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt to the windows -/

/-- One window's array at entry, from the buffer behind it at the window's share. -/
theorem arr_of_buf (c : Dev nD) (w : Fin cfg0.W) :
    (((c.tc : Thread nD τ).loc (Pipeline.arrRef spec0 w)) ↦{(dats m 0 c).share w} V m c (Pipeline.arrRef spec0 w) : sProp 𝕄)
      ⊢ ((cfg0.win w).arr.view.loc (c.tc : Thread nD τ) ↦[(cfg0.win w).arr.view.set]{(dats m 0 c).share w} (dats m 0 c).arrAt w 0) := by
  rw [(arr_whole0 w).set_eq_univ]
  exact Entails.of_eq rfl

/-- The buffers behind the windows' arrays, one by one: the seven arguments and the result. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_v0) ↦{fullShare} V m c main_v0)) :=
  bigSep_eq_bigSepL_of_eq [main_arg0, main_arg1, main_arg2, main_arg3, main_arg4, main_arg5, main_arg6, main_v0] (by decide) (by decide) _

/-- The buffers behind the windows' arrays, each whole, make the windows' arrays at their shares: the array x's
    points-to splits along its share into its three windows' parts, every other buffer goes to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  iintro ⟨H0, H1, H2, H3, H4, H5, H6, H7⟩
  ihave H0s := (pointsTo_share (PosShare.mem_left_op_right fullShare)).1 $$ H0
  icases H0s with ⟨Ha, Hr⟩
  ihave Hrs := (pointsTo_share (PosShare.mem_left_op_right fullShare.right)).1 $$ Hr
  icases Hrs with ⟨Hb, Hc⟩
  isplitl [Ha]; · iapply (arr_of_buf m c 0); iexact Ha
  isplitl [Hb]; · iapply (arr_of_buf m c 1); iexact Hb
  isplitl [Hc]; · iapply (arr_of_buf m c 2); iexact Hc
  isplitl [H1]; · iapply (arr_of_buf m c 3); iexact H1
  isplitl [H2]; · iapply (arr_of_buf m c 4); iexact H2
  isplitl [H3]; · iapply (arr_of_buf m c 5); iexact H3
  isplitl [H4]; · iapply (arr_of_buf m c 6); iexact H4
  isplitl [H5]; · iapply (arr_of_buf m c 7); iexact H5
  isplitl [H6]; · iapply (arr_of_buf m c 8); iexact H6
  iapply (arr_of_buf m c 9); iexact H7

/-! ## The run -/

/-- Every window's array ends at what the proof data computes after the last write-back. -/
def QC : PUnit × MemSt nD τ sig (Elt F) → Prop := fun r =>
  ∀ (c : Dev nD) (w : Fin cfg0.W), r.2.mem ((cfg0.win w).arr.view.loc (c.tc : Thread nD τ)) = (dats m 0 c).arrAt w cfg0.N

/-- From any memory with zero counters every weakly fair execution of the program terminates, faulting nowhere, and
    every window's array ends at the proof data's final contents. -/
theorem run_main : θ_run defs (onTc (τ := τ) (main (F := F))) ⟨m, fun _ => 0, ρ⟩ (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := Entails.rfl)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last cfg0.N) = Pipeline.scopedRest (Ix := Unit) (Name := ℕ) (U := UR sig nD τ) (Lvl := ℕ) (Val := Elt F) spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- An input window's array ends as launched. -/
theorem kept (c : Dev nD) (w : Fin cfg0.W) (hw : (cfg0.win w).isOut = false) (n : Nat) :
    (dats m 0 c).arrAt w n = V m c (Pipeline.arrRef spec0 w) :=
  ((dats m 0 c).arrAt_in w hw n).trans (A_eq m c w)

/-- The run with the result array named and the argument arrays unchanged. -/
theorem run_out : θ_run defs (onTc (τ := τ) (main (F := F))) ⟨m, fun _ => 0, ρ⟩ (fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c 9, (h c 1).trans (kept m c 1 rfl _), (h c 3).trans (kept m c 3 rfl _), (h c 4).trans (kept m c 4 rfl _), (h c 5).trans (kept m c 5 rfl _), (h c 6).trans (kept m c 6 rfl _), (h c 7).trans (kept m c 7 rfl _), (h c 8).trans (kept m c 8 rfl _)⟩) (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_out m ρ)

end Cert.KernelIdeal.Hand

end
-- ==== Proof.Spec.lean ====
/-
  The function both programs compute, written once over plain index types.

  Every node (b, n) of the input x : [4, 65536, 128] produces one output row of 128 entries from three
  input rows: its own, x(b, n, ·), and its two circular neighbours x(b, n - 1 mod 65536, ·) and
  x(b, n + 1 mod 65536, ·).  The three rows are laid side by side as one row of 384 entries, multiplied
  into W1 (384 × 128) with bias b1 and clamped below at zero; that hidden row is multiplied into W2
  (128 × 128) with bias b2 and added to the node's own row; the result is normalised across its 128
  entries (subtract the mean, multiply by the reciprocal square root of the mean squared deviation plus
  a small constant), scaled by gamma, shifted by beta and clamped below at zero.

  Nothing here mentions a block, a tile or a program: a sum is a sum over its index type, in no order.
-/
import Idealize.ShloMosaic.PureOps.Ideal
import Idealize.ShloMosaic.Lib.ValueIdx

noncomputable section

open scoped BigOperators

namespace Cert.Spec

open Idealize.ShloMosaic Idealize.ShloMosaic.ValueIdx

/-- The previous, own and next rows side by side: entry k of 384 is entry k of the previous row for
    k < 128, entry k - 128 of the own row for 128 ≤ k < 256, entry k - 256 of the next row beyond. -/
def cat (p c n : Fin 128 → EReal) (k : Fin 384) : EReal :=
  if h : k.val < 128 then p ⟨k.val, h⟩
  else if h2 : k.val < 256 then c ⟨k.val - 128, by omega⟩
  else n ⟨k.val - 256, by omega⟩

/-- The hidden row: the 384 entries against column j of W1, plus the bias, clamped below at zero. -/
def hidden (p c n : Fin 128 → EReal) (W1 : Fin 384 → Fin 128 → EReal) (b1 : Fin 128 → EReal) (j : Fin 128) : EReal :=
  max ((∑ k : Fin 384, cat p c n k * W1 k j) + b1 j) 0

/-- The node's own row plus the second product: the hidden row against column j of W2, plus its bias. -/
def resid (p c n : Fin 128 → EReal) (W1 : Fin 384 → Fin 128 → EReal) (b1 : Fin 128 → EReal)
    (W2 : Fin 128 → Fin 128 → EReal) (b2 : Fin 128 → EReal) (j : Fin 128) : EReal :=
  c j + ((∑ k : Fin 128, hidden p c n W1 b1 k * W2 k j) + b2 j)

/-- The mean of a row of 128 entries: their sum divided by the float 128 (0x43000000). -/
def mean (r : Fin 128 → EReal) : EReal :=
  Ideal.div (∑ j : Fin 128, r j) (Ideal.ofBits .f32 0x43000000#32)

/-- A row's deviation from its mean. -/
def dev (r : Fin 128 → EReal) (j : Fin 128) : EReal := r j - mean r

/-- A normalised row: deviation times the reciprocal square root of (mean squared deviation plus the float
    0x3727C5AC, about 1e-5), times gamma, plus beta, clamped below at zero. -/
def norm (r g be : Fin 128 → EReal) (j : Fin 128) : EReal :=
  max (dev r j * Ideal.rsqrt (mean (fun i => dev r i * dev r i) + Ideal.ofBits .f32 0x3727C5AC#32) * g j + be j) 0

/-- One output row from the three input rows and the parameters. -/
def rowOut (p c n : Fin 128 → EReal) (W1 : Fin 384 → Fin 128 → EReal) (b1 : Fin 128 → EReal)
    (W2 : Fin 128 → Fin 128 → EReal) (b2 g be : Fin 128 → EReal) (j : Fin 128) : EReal :=
  norm (resid p c n W1 b1 W2 b2) g be j

/-- The circular predecessor and successor of a node index. -/
def prevN (n : Fin 65536) : Fin 65536 := ⟨(n.val + 65535) % 65536, Nat.mod_lt _ (by decide)⟩
def nextN (n : Fin 65536) : Fin 65536 := ⟨(n.val + 1) % 65536, Nat.mod_lt _ (by decide)⟩

/-- The whole result at node (b, n), entry j, from the argument arrays. -/
def Gat (x : (⟨3, ![4, 65536, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 g be : (⟨1, ![128]⟩ : Shape).Idx → EReal) (b : Fin 4) (n : Fin 65536) (j : Fin 128) : EReal :=
  rowOut (fun c => x (ix3 b (prevN n) c)) (fun c => x (ix3 b n c)) (fun c => x (ix3 b (nextN n) c))
    (fun k h => W1 (ix2 k h)) (fun h => b1 (ix1 h)) (fun k h => W2 (ix2 k h))
    (fun h => b2 (ix1 h)) (fun h => g (ix1 h)) (fun h => be (ix1 h)) j

/-- The whole result array as one function of the argument arrays. -/
def G (x : (⟨3, ![4, 65536, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 g be : (⟨1, ![128]⟩ : Shape).Idx → EReal) : (⟨3, ![4, 65536, 128]⟩ : Shape).Idx → EReal :=
  fun i => Gat x W1 b1 W2 b2 g be (i 0) (i 1) (i 2)

theorem G_ix3 (x : (⟨3, ![4, 65536, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 g be : (⟨1, ![128]⟩ : Shape).Idx → EReal) (b : Fin 4) (n : Fin 65536) (j : Fin 128) :
    G x W1 b1 W2 b2 g be (ix3 b n j) = Gat x W1 b1 W2 b2 g be b n j := rfl

/-! ## The same rows read inside one tile of 2048 nodes

A tile holds 2048 consecutive rows of one batch entry; beside it come the 8 rows that end just before
the tile and the 8 rows that start just after it (circularly).  Inside the tile the previous row of
row r is row r - 1 of the tile, except for r = 0 where it is the last of the 8 rows before; the next
row of row r is row r + 1 of the tile, except for r = 2047 where it is the first of the 8 rows after. -/

/-- The previous row of row r of a tile: the tile's own row r - 1 (circularly, which only matters at
    r = 0), replaced at r = 0 by row 7 of the eight rows before the tile. -/
def blkPrev (v0 : (⟨3, ![1, 2048, 128]⟩ : Shape).Idx → EReal) (v2 : (⟨3, ![1, 8, 128]⟩ : Shape).Idx → EReal)
    (r : Fin 2048) (c : Fin 128) : EReal :=
  if r.val = 0 then v2 (ix3 0 7 c) else v0 (ix3 0 ⟨(r.val + 2047) % 2048, Nat.mod_lt _ (by decide)⟩ c)

/-- The next row of row r of a tile: the tile's own row r + 1 (circularly, which only matters at
    r = 2047), replaced at r = 2047 by row 0 of the eight rows after the tile. -/
def blkNext (v0 : (⟨3, ![1, 2048, 128]⟩ : Shape).Idx → EReal) (v4 : (⟨3, ![1, 8, 128]⟩ : Shape).Idx → EReal)
    (r : Fin 2048) (c : Fin 128) : EReal :=
  if r.val = 2047 then v4 (ix3 0 0 c) else v0 (ix3 0 ⟨(r.val + 1) % 2048, Nat.mod_lt _ (by decide)⟩ c)

/-- One output row of a tile from the tile, the rows around it and the parameters as the tile finds them. -/
def blkOut (v0 : (⟨3, ![1, 2048, 128]⟩ : Shape).Idx → EReal) (v2 v4 : (⟨3, ![1, 8, 128]⟩ : Shape).Idx → EReal)
    (W1 : (⟨2, ![384, 128]⟩ : Shape).Idx → EReal) (b1 : (⟨1, ![128]⟩ : Shape).Idx → EReal)
    (W2 : (⟨2, ![128, 128]⟩ : Shape).Idx → EReal) (b2 g be : (⟨1, ![128]⟩ : Shape).Idx → EReal)
    (r : Fin 2048) (j : Fin 128) : EReal :=
  rowOut (blkPrev v0 v2 r) (fun c => v0 (ix3 0 r c)) (blkNext v0 v4 r)
    (fun k h => W1 (ix2 k h)) (fun h => b1 (ix1 h)) (fun k h => W2 (ix2 k h))
    (fun h => b2 (ix1 h)) (fun h => g (ix1 h)) (fun h => be (ix1 h)) j

end Cert.Spec

end
-- ==== Proof.KValueLayout.lean ====
/-
  Single operations of a tile's computation read at one entry, over literal row and lane counts.

  Each statement says which entry of its operand an operation reads at the entry (r, c) of its result: a
  vector of per-row values turned into a one-entry-wide column and that column copied across the lanes; a
  rotation of the rows; the row number compared with a constant; three 128-lane rows laid side by side; a
  matrix product into a zero accumulator as a sum over the contracted coordinate; a sum along the lanes.
-/
import Idealize.ShloMosaic.Lib.ValueLayout
import Idealize.ShloMosaic.Lib.KernelVsHost
import Idealize.ShloMosaic.PureOps.Ideal.Laws
import proofs.«161234_j46815143526781_2_alg».proof.Proof.Spec

noncomputable section

open scoped BigOperators

namespace Cert.KernelIdeal.KValue

open Idealize.ShloMosaic Idealize.ShloMosaic.ValueIdx

variable {α : Type}

/-- A vector of `a` entries viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied across `b` lanes reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `b` entries viewed as one row and copied down `a` rows reads, at `(p, c)`, the vector at `c`. -/
theorem rowvec_bcast_apply {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

/-- The zero word of the 32-bit format is the extended real zero. -/
theorem scalar_zero_f32 : (Scalar.ofBits .f32 0x00000000#32 : Ideal .f32) = 0 := Ideal.ofBits_zero_f32

/-- A rotation of the rows by `sb` reads, at row `r`, the row `(r + n - sb mod n) mod n`. -/
theorem rotate_rows_apply {n m : ℕ} (sb : BitVec 32) (x : (⟨2, ![n, m]⟩ : Shape).Idx → α)
    (h : (⟨2, ![n, m]⟩ : Shape).Rotates 0 none) (r : Fin n) (c : Fin m) (k : Fin n)
    (hk : k.val = (r.val + n - sb.toNat % n) % n) :
    dynamicRotate 0 sb none x h (ix2 r c) = x (ix2 k c) :=
  dynamicRotate_apply 0 sb x h (ix2 r c) (ix2 k c) (fun b => by
    match b with
    | ⟨0, _⟩ => exact hk.trans (if_pos rfl).symm
    | ⟨1, _⟩ => exact (if_neg fun e => absurd (congrArg Fin.val e) Nat.one_ne_zero).symm)

/-- A choice between two arrays on "the row number is `k`" (the row number as a 32-bit word compared with
    the word `k`) is, at row `r`, the first array when `r = k` and the second otherwise. -/
theorem select_row_apply {n m : ℕ} (hn : n ≤ 2 ^ 32) (h : (⟨2, ![n, m]⟩ : Shape).Iotas .tc 32 [0]) (k : ℕ) (hk : k < 2 ^ 32)
    (A B : (⟨2, ![n, m]⟩ : Shape).Idx → α) (r : Fin n) (c : Fin m) :
    select (cmpi .eq (iota .tc ⟨2, ![n, m]⟩ 32 [0] h) (broadcast ⟨2, ![n, m]⟩ (BitVec.ofNat 32 k))) A B (ix2 r c)
      = if r.val = k then A (ix2 r c) else B (ix2 r c) := by
  have hr : r.val < 2 ^ 32 := lt_of_lt_of_le r.isLt hn
  show Scalar.select (IntOp.cmpi .eq (iota .tc ⟨2, ![n, m]⟩ 32 [0] h (ix2 r c)) (BitVec.ofNat 32 k)) _ _ = _
  rw [iota_single_apply]
  show Scalar.select (BitVec.ofBool (BitVec.ofNat 32 r.val == BitVec.ofNat 32 k)) _ _ = _
  by_cases e : r.val = k
  · rw [if_pos e, e, beq_self_eq_true]; exact select_one _ _
  · rw [if_neg e]
    have : (BitVec.ofNat 32 r.val == BitVec.ofNat 32 k) = false := by
      rw [beq_eq_false_iff_ne]
      intro hh
      have := congrArg BitVec.toNat hh
      rw [BitVec.toNat_ofNat, BitVec.toNat_ofNat, Nat.mod_eq_of_lt hr, Nat.mod_eq_of_lt hk] at this
      exact e this
    rw [this]; exact select_zero _ _

/-- Three arrays of 128 lanes laid side by side along the lanes read, at row `r` and lane `k` of 384, the
    three rows `r` side by side. -/
theorem cat3_apply (A B C : (⟨2, ![2048, 128]⟩ : Shape).Idx → EReal)
    (h : Shape.Concatenates [(⟨2, ![2048, 128]⟩ : Shape), ⟨2, ![2048, 128]⟩, ⟨2, ![2048, 128]⟩] ⟨2, ![2048, 384]⟩ 1)
    (r : Fin 2048) (k : Fin 384) :
    concatenate ⟨2, ![2048, 384]⟩ 1 [⟨⟨2, ![2048, 128]⟩, A⟩, ⟨⟨2, ![2048, 128]⟩, B⟩, ⟨⟨2, ![2048, 128]⟩, C⟩] h (ix2 r k)
      = Cert.Spec.cat (fun c => A (ix2 r c)) (fun c => B (ix2 r c)) (fun c => C (ix2 r c)) k := by
  unfold Cert.Spec.cat
  by_cases h1 : k.val < 128
  · rw [dif_pos h1]
    exact concatenate_apply_piece 1 [⟨⟨2, ![2048, 128]⟩, A⟩, ⟨⟨2, ![2048, 128]⟩, B⟩, ⟨⟨2, ![2048, 128]⟩, C⟩] h (ix2 r k) 0 (by show 0 < 3; omega) ⟨2, ![2048, 128]⟩ A rfl rfl 0 rfl
      (ix2 r ⟨k.val, h1⟩) (fun b hb => by
        match b with
        | ⟨0, _⟩ => rfl
        | ⟨1, _⟩ => exact absurd rfl hb) (by show 0 + k.val = k.val; omega)
  · rw [dif_neg h1]
    by_cases h2 : k.val < 256
    · rw [dif_pos h2]
      exact concatenate_apply_piece 1 [⟨⟨2, ![2048, 128]⟩, A⟩, ⟨⟨2, ![2048, 128]⟩, B⟩, ⟨⟨2, ![2048, 128]⟩, C⟩] h (ix2 r k) 1 (by show 1 < 3; omega) ⟨2, ![2048, 128]⟩ B rfl rfl 128 rfl
        (ix2 r ⟨k.val - 128, by omega⟩) (fun b hb => by
          match b with
          | ⟨0, _⟩ => rfl
          | ⟨1, _⟩ => exact absurd rfl hb) (by show 128 + (k.val - 128) = k.val; omega)
    · rw [dif_neg h2]
      exact concatenate_apply_piece 1 [⟨⟨2, ![2048, 128]⟩, A⟩, ⟨⟨2, ![2048, 128]⟩, B⟩, ⟨⟨2, ![2048, 128]⟩, C⟩] h (ix2 r k) 2 (by show 2 < 3; omega) ⟨2, ![2048, 128]⟩ C rfl rfl 256 rfl
        (ix2 r ⟨k.val - 256, by have := k.isLt; omega⟩) (fun b hb => by
          match b with
          | ⟨0, _⟩ => rfl
          | ⟨1, _⟩ => exact absurd rfl hb) (by show 256 + (k.val - 256) = k.val; omega)

/-- A product of an `M × K` by a `K × N` matrix (rows against columns) into a zero accumulator reads, at
    `(a, b)`, the sum over the contracted coordinate of the products of the entries. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (a : Fin M) (b : Fin N) :
    matmul (⟨[1], [0], [0], [1], [], [], w⟩ : DotDims _ _ _) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A sum along the 128 lanes from the zero word reads, at row `r`, the sum of that row's entries. -/
theorem lanesum_apply (src : FVec Ideal ⟨2, ![2048, 128]⟩ .f32) (h : (⟨2, ![2048, 128]⟩ : Shape).Reduces [1] ⟨1, ![2048]⟩)
    (hφ : FKind.Formats .f32) (hacc : (0x00000000#32 : BitVec 32) = 0x00000000#32) (r : Fin 2048) :
    multiReduction .add [1] ⟨1, ![2048]⟩ src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext a
  apply Fin.ext
  match a with
  | ⟨0, _⟩ => rfl
  | ⟨1, _⟩ => rfl

end Cert.KernelIdeal.KValue

end
-- ==== Proof.KValueRows.lean ====
/-
  The tile's second product at one entry.

  Row r of a tile of 2048 rows is multiplied with the row before it and the row after it.  The row before
  is the tile's rows rotated down by one, with row 0 replaced by the last of the eight rows that precede
  the tile; the row after is the rows rotated up by one (a rotation by 2047), with row 2047 replaced by the
  first of the eight rows that follow the tile.  The three rows side by side (384 entries) against W1,
  plus b1, clamped below at zero, give the hidden row; the hidden row against W2 is the product read here.
-/
import proofs.«161234_j46815143526781_2_alg».proof.Proof.Gen.KernelIdeal.Skeleton
import proofs.«161234_j46815143526781_2_alg».proof.Proof.KValueLayout

noncomputable section

open scoped BigOperators

namespace Cert.KernelIdeal.KValue

open Idealize.ShloMosaic Idealize.ShloMosaic.ValueIdx

/-- The tile without its leading unit axis reads, at `(r, c)`, the tile at `(0, r, c)`. -/
theorem pay2_apply (v0 : FVec Ideal S1x2048x128 .f32) (r : Fin 2048) (c : Fin 128) :
    Gen.k0_pay2 (F := Ideal) v0 (ix2 r c) = v0 (ix3 (0 : Fin 1) r c) := by
  unfold Gen.k0_pay2
  exact shapeCast_1ab_ab_apply v0 _ r c

/-- The rows rotated down by one, row 0 patched with row 7 of the eight rows before the tile: the row
    before row `r`. -/
theorem prevRow_apply (v0 : FVec Ideal S1x2048x128 .f32) (v2 : FVec Ideal S1x8x128 .f32)
    (hi : S2048x128.Iotas .tc 32 [0]) (hb : S1x128.Broadcasts S2048x128) (hc1 : S1x128.ShapeCasts S1x128)
    (hs : S8x128.Slices ![7, 0] S1x128) (hc2 : S1x8x128.ShapeCasts S8x128) (hr : S2048x128.Rotates 0 none)
    (hc0 : S1x2048x128.ShapeCasts S2048x128) (r : Fin 2048) (c : Fin 128) :
    select (cmpi .eq (iota .tc S2048x128 32 [0] hi) (broadcast S2048x128 0#32))
        (broadcastTo S2048x128 (shapeCast S1x128 (extractStridedSlice S1x128 ![7, 0] (shapeCast S8x128 v2 hc2) hs) hc1) hb)
        (dynamicRotate 0 1#32 none (shapeCast S2048x128 v0 hc0) hr) (ix2 r c)
      = Cert.Spec.blkPrev v0 v2 r c := by
  refine (select_row_apply (by decide) hi 0 (by decide) _ _ r c).trans ?_
  unfold Cert.Spec.blkPrev
  by_cases e : r.val = 0
  · rw [if_pos e, if_pos e]
    refine (broadcastTo_1b_ab_apply _ hb r c).trans ?_
    rw [shapeCast_self]
    refine (slice2_axis0_apply 7 _ hs (0 : Fin 1) c (7 : Fin 8) rfl).trans ?_
    exact shapeCast_1ab_ab_apply v2 hc2 7 c
  · rw [if_neg e, if_neg e]
    refine (rotate_rows_apply 1#32 _ hr r c ⟨(r.val + 2047) % 2048, Nat.mod_lt _ (by decide)⟩ ?_).trans ?_
    · show (r.val + 2047) % 2048 = (r.val + 2048 - 1 % 2048) % 2048
      omega
    · exact shapeCast_1ab_ab_apply v0 hc0 _ c

/-- The rows rotated up by one, row 2047 patched with row 0 of the eight rows after the tile: the row
    after row `r`. -/
theorem nextRow_apply (v0 : FVec Ideal S1x2048x128 .f32) (v4 : FVec Ideal S1x8x128 .f32)
    (hi : S2048x128.Iotas .tc 32 [0]) (hb : S1x128.Broadcasts S2048x128) (hc1 : S1x128.ShapeCasts S1x128)
    (hs : S8x128.Slices ![0, 0] S1x128) (hc2 : S1x8x128.ShapeCasts S8x128) (hr : S2048x128.Rotates 0 none)
    (hc0 : S1x2048x128.ShapeCasts S2048x128) (r : Fin 2048) (c : Fin 128) :
    select (cmpi .eq (iota .tc S2048x128 32 [0] hi) (broadcast S2048x128 2047#32))
        (broadcastTo S2048x128 (shapeCast S1x128 (extractStridedSlice S1x128 ![0, 0] (shapeCast S8x128 v4 hc2) hs) hc1) hb)
        (dynamicRotate 0 2047#32 none (shapeCast S2048x128 v0 hc0) hr) (ix2 r c)
      = Cert.Spec.blkNext v0 v4 r c := by
  refine (select_row_apply (by decide) hi 2047 (by decide) _ _ r c).trans ?_
  unfold Cert.Spec.blkNext
  by_cases e : r.val = 2047
  · rw [if_pos e, if_pos e]
    refine (broadcastTo_1b_ab_apply _ hb r c).trans ?_
    rw [shapeCast_self]
    refine (slice2_axis0_apply 0 _ hs (0 : Fin 1) c (0 : Fin 8) rfl).trans ?_
    exact shapeCast_1ab_ab_apply v4 hc2 0 c
  · rw [if_neg e, if_neg e]
    refine (rotate_rows_apply 2047#32 _ hr r c ⟨(r.val + 1) % 2048, Nat.mod_lt _ (by decide)⟩ ?_).trans ?_
    · show (r.val + 1) % 2048 = (r.val + 2048 - 2047 % 2048) % 2048
      omega
    · exact shapeCast_1ab_ab_apply v0 hc0 _ c

/-- The first product into a zero accumulator at `(r, j)`: the sum over the 384 contracted entries. -/
theorem mm1_apply (A : FVec Ideal S2048x384 .bf16) (B : FVec Ideal S384x128 .bf16) (r : Fin 2048) (j : Fin 128) :
    matmul dot_S2048x384_S384x128_S2048x128_1_0_0_1_n_n none A B (constant (F := Ideal) S2048x128 .f32 0x00000000#32) (ix2 r j)
      = ∑ k : Fin 384, A (ix2 r k) * B (ix2 k j) :=
  matmul_zero_apply _ none A B r j

/-- The second product into a zero accumulator at `(r, j)`: the sum over the 128 contracted entries. -/
theorem mm2_apply (A : FVec Ideal S2048x128 .bf16) (B : FVec Ideal S128x128 .bf16) (r : Fin 2048) (j : Fin 128) :
    matmul dot_S2048x128_S128x128_S2048x128_1_0_0_1_n_n none A B (constant (F := Ideal) S2048x128 .f32 0x00000000#32) (ix2 r j)
      = ∑ k : Fin 128, A (ix2 r k) * B (ix2 k j) :=
  matmul_zero_apply _ none A B r j

/-- The hidden row at `(r, j)`, from three arrays whose rows `r` are `p`, `c` and `n`. -/
theorem hidden_apply (P Cn N : FVec Ideal S2048x128 .f32) (v23 : FVec Ideal S384x128 .f32) (v26 : FVec Ideal S128 .f32)
    (hcat : Shape.Concatenates [S2048x128, S2048x128, S2048x128] S2048x384 1) (hlt : FTy.bits .bf16 < FTy.bits .f32)
    (hc : S128.ShapeCasts S1x128) (hb : S1x128.Broadcasts S2048x128) (r : Fin 2048) (j : Fin 128)
    (p c n : Fin 128 → EReal) (hP : ∀ x, P (ix2 r x) = p x) (hC : ∀ x, Cn (ix2 r x) = c x) (hN : ∀ x, N (ix2 r x) = n x) :
    maximumf (addf (matmul dot_S2048x384_S384x128_S2048x128_1_0_0_1_n_n none
          (truncf .bf16 (concatenate S2048x384 1 [⟨S2048x128, P⟩, ⟨S2048x128, Cn⟩, ⟨S2048x128, N⟩] hcat) hlt)
          (truncf .bf16 v23 hlt) (constant (F := Ideal) S2048x128 .f32 0x00000000#32))
        (broadcastTo S2048x128 (shapeCast S1x128 v26 hc) hb))
      (broadcast S2048x128 (Scalar.ofBits .f32 0x00000000#32)) (ix2 r j)
    = Cert.Spec.hidden p c n (fun k h => v23 (ix2 k h)) (fun h => v26 (ix1 h)) j := by
  unfold Cert.Spec.hidden
  rw [maximumf_apply, addf_apply, broadcast_apply, mm1_apply, rowvec_bcast_apply, scalar_zero_f32]
  refine congrArg (fun s => max (s + v26 (ix1 j)) 0) (Finset.sum_congr rfl fun k _ => ?_)
  rw [truncf_apply, truncf_apply, cat3_apply]
  have eP : (fun x => P (ix2 r x)) = p := funext hP
  have eC : (fun x => Cn (ix2 r x)) = c := funext hC
  have eN : (fun x => N (ix2 r x)) = n := funext hN
  rw [eP, eC, eN]

/-- The second product of the tile at `(r, j)`: the hidden row of row `r` against column `j` of W2. -/
theorem pay3_apply (v0 : FVec Ideal S1x2048x128 .f32) (v2 v4 : FVec Ideal S1x8x128 .f32) (v23 : FVec Ideal S384x128 .f32)
    (v26 : FVec Ideal S128 .f32) (v33 : FVec Ideal S128x128 .f32) (r : Fin 2048) (j : Fin 128) :
    Gen.k0_pay3 (F := Ideal) v0 v2 v4 v23 v26 v33 (ix2 r j)
      = ∑ k : Fin 128, Cert.Spec.hidden (Cert.Spec.blkPrev v0 v2 r) (fun c => v0 (ix3 (0 : Fin 1) r c)) (Cert.Spec.blkNext v0 v4 r)
          (fun k h => v23 (ix2 k h)) (fun h => v26 (ix1 h)) k * v33 (ix2 k j) := by
  unfold Gen.k0_pay3 Gen.k0_pay2
  refine (mm2_apply _ _ r j).trans (Finset.sum_congr rfl fun k _ => ?_)
  refine congrArg (fun s => s * v33 (ix2 k j)) ?_
  exact hidden_apply _ _ _ v23 v26 _ _ _ _ r k _ _ _
    (fun x => prevRow_apply v0 v2 _ _ _ _ _ _ _ r x)
    (fun x => shapeCast_1ab_ab_apply v0 _ r x)
    (fun x => nextRow_apply v0 v4 _ _ _ _ _ _ _ r x)

end Cert.KernelIdeal.KValue

end
-- ==== Proof.KValueNorm.lean ====
/-
  The tile's normalisation at one entry.

  The second product plus b2 is added to the tile's own rows; each resulting row of 128 entries has its
  mean taken (the lane sum divided by the float 128), the mean subtracted, the squared deviations averaged
  the same way, a small constant added, and the reciprocal square root of that multiplied back in; the row
  is then scaled by gamma, shifted by beta and clamped below at zero.
-/
import proofs.«161234_j46815143526781_2_alg».proof.Proof.Gen.KernelIdeal.Skeleton
import proofs.«161234_j46815143526781_2_alg».proof.Proof.KValueLayout

noncomputable section

open scoped BigOperators

namespace Cert.KernelIdeal.KValue

open Idealize.ShloMosaic Idealize.ShloMosaic.ValueIdx

/-- A reciprocal square root at an index is the reciprocal square root of the entry. -/
theorem rsqrt_apply {s : Shape} {φ : FTy} (a : FVec Ideal s φ) (i : s.Idx) : rsqrt a i = Ideal.rsqrt (a i) := rfl

/-- The column of lane sums divided by the float 128, at row `r`: the mean of row `r`. -/
theorem colmean_apply (x : FVec Ideal S2048x128 .f32) (hred : S2048x128.Reduces [1] S2048) (hφ : FKind.Formats .f32)
    (hacc : (0x00000000#32 : BitVec 32) = 0x00000000#32) (hc : S2048.ShapeCasts S2048x1) (r : Fin 2048) :
    divf (shapeCast S2048x1 (multiReduction .add [1] S2048 x 0x00000000#32 hred hφ hacc) hc)
        (broadcast S2048x1 (Scalar.ofBits .f32 0x43000000#32)) (ix2 r (0 : Fin 1))
      = Cert.Spec.mean (fun c => x (ix2 r c)) := by
  unfold Cert.Spec.mean
  rw [divf_apply, broadcast_apply, shapeCast_a_a1_apply, lanesum_apply]
  rfl

/-- An array less the column of its row means copied across the lanes, at `(r, c)`: the deviation of entry
    `c` of row `r` from the row's mean. -/
theorem dev_apply (x : FVec Ideal S2048x128 .f32) (hred : S2048x128.Reduces [1] S2048) (hφ : FKind.Formats .f32)
    (hacc : (0x00000000#32 : BitVec 32) = 0x00000000#32) (hc : S2048.ShapeCasts S2048x1)
    (hbc : S2048x1.Broadcasts S2048x128) (r : Fin 2048) (c : Fin 128) :
    subf x (broadcastTo S2048x128 (divf (shapeCast S2048x1 (multiReduction .add [1] S2048 x 0x00000000#32 hred hφ hacc) hc)
        (broadcast S2048x1 (Scalar.ofBits .f32 0x43000000#32))) hbc) (ix2 r c)
      = Cert.Spec.dev (fun c => x (ix2 r c)) c := by
  unfold Cert.Spec.dev
  rw [subf_apply, broadcastTo_a1_ab_apply, colmean_apply]

/-- From an array `D` whose row `r` holds the deviations of a row `R`, and arrays whose entries at `(r, j)` are
    gamma's and beta's: the normalised, scaled, shifted and clamped entry. -/
theorem normcore_apply (D G B : FVec Ideal S2048x128 .f32) (hred : S2048x128.Reduces [1] S2048) (hφ : FKind.Formats .f32)
    (hacc : (0x00000000#32 : BitVec 32) = 0x00000000#32) (hc : S2048.ShapeCasts S2048x1)
    (hbc : S2048x1.Broadcasts S2048x128) (r : Fin 2048) (j : Fin 128)
    (R g be : Fin 128 → EReal) (hD : ∀ c, D (ix2 r c) = Cert.Spec.dev R c) (hG : G (ix2 r j) = g j) (hB : B (ix2 r j) = be j) :
    maximumf (addf (mulf (mulf D (broadcastTo S2048x128 (rsqrt (addf
          (divf (shapeCast S2048x1 (multiReduction .add [1] S2048 (mulf D D) 0x00000000#32 hred hφ hacc) hc)
            (broadcast S2048x1 (Scalar.ofBits .f32 0x43000000#32)))
          (broadcast S2048x1 (Scalar.ofBits .f32 0x3727C5AC#32)))) hbc)) G) B)
      (broadcast S2048x128 (Scalar.ofBits .f32 0x00000000#32)) (ix2 r j)
    = Cert.Spec.norm R g be j := by
  unfold Cert.Spec.norm
  rw [maximumf_apply, addf_apply, mulf_apply, mulf_apply, broadcast_apply, broadcastTo_a1_ab_apply, hD, hG, hB,
    scalar_zero_f32]
  refine congrArg (fun s => max (Cert.Spec.dev R j * s * g j + be j) 0) ?_
  rw [rsqrt_apply, addf_apply, broadcast_apply, colmean_apply]
  refine congrArg (fun m => Ideal.rsqrt (Cert.Spec.mean m + Ideal.ofBits .f32 0x3727C5AC#32)) (funext fun i => ?_)
  rw [mulf_apply, hD]

/-- The stored tile at `(0, r, j)` from the own rows `v1` and the second product `v35`: the normalised row
    `v1 + (v35 + b2)`. -/
theorem pay1_apply (v1 v35 : FVec Ideal S2048x128 .f32) (v36 v57 v61 : FVec Ideal S128 .f32) (r : Fin 2048) (j : Fin 128) :
    Gen.k0_pay1 (F := Ideal) v1 v35 v36 v57 v61 (ix3 (0 : Fin 1) r j)
      = Cert.Spec.norm (fun c => v1 (ix2 r c) + (v35 (ix2 r c) + v36 (ix1 c)))
          (fun h => v57 (ix1 h)) (fun h => v61 (ix1 h)) j := by
  unfold Gen.k0_pay1
  refine (shapeCast_ab_1ab_apply _ _ (0 : Fin 1) r j).trans ?_
  refine (normcore_apply _ _ _ _ _ _ _ _ r j
    (fun c => addf v1 (addf v35 (broadcastTo S2048x128 (shapeCast S1x128 v36 Gen.shapeCasts_S128_S1x128) Gen.broadcasts_S1x128_S2048x128)) (ix2 r c))
    (fun h => v57 (ix1 h)) (fun h => v61 (ix1 h))
    (fun c => dev_apply _ _ _ _ _ _ r c) (rowvec_bcast_apply v57 _ _ r j) (rowvec_bcast_apply v61 _ _ r j)).trans ?_
  refine congrArg (fun R => Cert.Spec.norm R (fun h => v57 (ix1 h)) (fun h => v61 (ix1 h)) j) (funext fun c => ?_)
  rw [addf_apply, addf_apply, rowvec_bcast_apply]

end Cert.KernelIdeal.KValue

end
-- ==== Proof.KValue.lean ====
/-
  One entry of the tile a grid point stores, as the specification's tile function.

  The stored tile is the normalisation of "own row plus (second product plus b2)".  The own row of row r is
  row r of the tile; the second product at (r, c) is the hidden row of row r — built from the row before,
  row r and the row after — against column c of W2.  Together these are exactly the residual row the
  specification normalises, so the stored entry is the specification's output at (r, j).
-/
import proofs.«161234_j46815143526781_2_alg».proof.Proof.KValueRows
import proofs.«161234_j46815143526781_2_alg».proof.Proof.KValueNorm

noncomputable section

open scoped BigOperators

namespace Cert.KernelIdeal.KValue

open Idealize.ShloMosaic Idealize.ShloMosaic.ValueIdx

/-- The value a grid point stores, at entry `(0, r, j)` of its tile, is the specification's output for row `r`
    of the tile at entry `j`. -/
theorem pay_apply (v0 : Vec Ideal S1x2048x128 .f32) (v2 v4 : Vec Ideal S1x8x128 .f32) (v23 : Vec Ideal S384x128 .f32)
    (v26 : Vec Ideal S128 .f32) (v33 : Vec Ideal S128x128 .f32) (v36 v57 v61 : Vec Ideal S128 .f32)
    (r : Fin 2048) (j : Fin 128) :
    Cert.KernelIdeal.Gen.k0_pay1 (F := Ideal) (Cert.KernelIdeal.Gen.k0_pay2 v0)
        (Cert.KernelIdeal.Gen.k0_pay3 v0 v2 v4 v23 v26 v33) v36 v57 v61 (ValueIdx.ix3 (0 : Fin 1) r j)
      = Cert.Spec.blkOut v0 v2 v4 v23 v26 v33 v36 v57 v61 r j := by
  refine (pay1_apply _ _ v36 v57 v61 r j).trans ?_
  unfold Cert.Spec.blkOut Cert.Spec.rowOut
  refine congrArg (fun R => Cert.Spec.norm R (fun h => v57 (ix1 h)) (fun h => v61 (ix1 h)) j) (funext fun c => ?_)
  unfold Cert.Spec.resid
  rw [pay2_apply, pay3_apply]

end Cert.KernelIdeal.KValue

end
-- ==== Proof.KIValue.lean ====
/-
  The idealized kernel's result array after the run is the specification applied to the argument arrays.

  At grid point t = (batch entry b, tile i) the body's stored value, read at row r and entry k of the tile, is one
  output row of the specification computed from the tile's row r, its previous and its next row (Proof/KValue.lean).
  Each staged block is a rectangle of its array at block index × block size; the index maps are decided once over the
  128 grid points.  So the tile's row r is row n = 2048·i + r of batch entry b, its previous row is row
  (n + 65535) mod 65536 — inside the tile for r > 0, the last of the eight rows before the tile for r = 0 — and its
  next row is row (n + 1) mod 65536 likewise.  Hence what point t writes back is tile t of the specification, and since
  every index of the result lies in the tile of the point (its batch entry, its row divided by 2048), the array ends
  at the specification everywhere.
-/
import proofs.«161234_j46815143526781_2_alg».proof.Proof.KIRun
import proofs.«161234_j46815143526781_2_alg».proof.Proof.Spec
import proofs.«161234_j46815143526781_2_alg».proof.Proof.KValue
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the 128 grid points: the tile window and the result window move together
    over (batch entry, tile); the eight rows before the tile are the 8-row block number (256·tile + 8191) mod 8192, the
    eight rows after it the block number 256·(tile + 1) mod 8192; the parameter windows sit at block 0. -/
theorem idx_facts : ∀ t : Fin cfg0.N,
    win0_1.index t (0 : Fin 3) = win0_9.index t (0 : Fin 3) ∧ win0_1.index t (1 : Fin 3) = win0_9.index t (1 : Fin 3) ∧ win0_1.index t (2 : Fin 3) = 0
    ∧ win0_0.index t (0 : Fin 3) = win0_9.index t (0 : Fin 3) ∧ win0_0.index t (1 : Fin 3) = (win0_9.index t (1 : Fin 3) * 256 + 8191) % 8192 ∧ win0_0.index t (2 : Fin 3) = 0
    ∧ win0_2.index t (0 : Fin 3) = win0_9.index t (0 : Fin 3) ∧ win0_2.index t (1 : Fin 3) = ((win0_9.index t (1 : Fin 3) + 1) * 256) % 8192 ∧ win0_2.index t (2 : Fin 3) = 0
    ∧ win0_9.index t (0 : Fin 3) ≤ 3 ∧ win0_9.index t (1 : Fin 3) ≤ 31 ∧ win0_9.index t (2 : Fin 3) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 1) = 0 ∧ win0_8.index t (0 : Fin 1) = 0 :=
  (by decide +kernel : ∀ t : Fin grid0.N, _)

/-- Every tile of the result is some grid point's. -/
theorem idx_onto : ∀ (q0 : Fin 4) (q1 : Fin 32), ∃ t : Fin cfg0.N, win0_9.index t = ![q0.val, q1.val, 0] :=
  (by decide +kernel : ∀ (q0 : Fin 4) (q1 : Fin 32), ∃ t : Fin grid0.N, win0_9.index t = ![q0.val, q1.val, 0])

/-! ## Each input block, read where the result's tile says

An element of a window's block at a grid point sits in the window's array at block index × block size + its
coordinate inside the block, axis by axis. -/

/-- The tile: row r of the block is row tile·2048 + r of batch entry b. -/
theorem tile_apply (c : Dev nD) (t : Fin cfg0.N) (r : Fin 2048) (k : Fin 128) (b : Fin 4) (n : Fin 65536)
    (hb : b.val = win0_9.index t (0 : Fin 3)) (hn : n.val = win0_9.index t (1 : Fin 3) * 2048 + r.val) :
    iblk m c 1 t (ix3 (0 : Fin 1) r k) = V m c main_arg0 (ix3 b n k) := by
  obtain ⟨e0, e1, e2, -⟩ := idx_facts t
  show V m c main_arg0 (((cfg0.win 1).blk t).view.emb (ix3 (0 : Fin 1) r k)) = V m c main_arg0 (ix3 b n k)
  refine congrArg _ (funext fun a => Fin.ext ?_)
  match a with
  | ⟨0, _⟩ => show win0_1.index t (0 : Fin 3) * 1 + 1 * 0 = b.val; omega
  | ⟨1, _⟩ => show win0_1.index t (1 : Fin 3) * 2048 + 1 * r.val = n.val; omega
  | ⟨2, _⟩ => show win0_1.index t (2 : Fin 3) * 128 + 1 * k.val = k.val; omega

/-- The eight rows before the tile: row q of the block is row 8·((256·tile + 8191) mod 8192) + q. -/
theorem before_apply (c : Dev nD) (t : Fin cfg0.N) (q : Fin 8) (k : Fin 128) (b : Fin 4) (n : Fin 65536)
    (hb : b.val = win0_9.index t (0 : Fin 3)) (hn : n.val = (win0_9.index t (1 : Fin 3) * 256 + 8191) % 8192 * 8 + q.val) :
    iblk m c 0 t (ix3 (0 : Fin 1) q k) = V m c main_arg0 (ix3 b n k) := by
  obtain ⟨-, -, -, e0, e1, e2, -⟩ := idx_facts t
  show V m c main_arg0 (((cfg0.win 0).blk t).view.emb (ix3 (0 : Fin 1) q k)) = V m c main_arg0 (ix3 b n k)
  refine congrArg _ (funext fun a => Fin.ext ?_)
  match a with
  | ⟨0, _⟩ => show win0_0.index t (0 : Fin 3) * 1 + 1 * 0 = b.val; omega
  | ⟨1, _⟩ => show win0_0.index t (1 : Fin 3) * 8 + 1 * q.val = n.val; omega
  | ⟨2, _⟩ => show win0_0.index t (2 : Fin 3) * 128 + 1 * k.val = k.val; omega

/-- The eight rows after the tile: row q of the block is row 8·(256·(tile + 1) mod 8192) + q. -/
theorem after_apply (c : Dev nD) (t : Fin cfg0.N) (q : Fin 8) (k : Fin 128) (b : Fin 4) (n : Fin 65536)
    (hb : b.val = win0_9.index t (0 : Fin 3)) (hn : n.val = (win0_9.index t (1 : Fin 3) + 1) * 256 % 8192 * 8 + q.val) :
    iblk m c 2 t (ix3 (0 : Fin 1) q k) = V m c main_arg0 (ix3 b n k) := by
  obtain ⟨-, -, -, -, -, -, e0, e1, e2, -⟩ := idx_facts t
  show V m c main_arg0 (((cfg0.win 2).blk t).view.emb (ix3 (0 : Fin 1) q k)) = V m c main_arg0 (ix3 b n k)
  refine congrArg _ (funext fun a => Fin.ext ?_)
  match a with
  | ⟨0, _⟩ => show win0_2.index t (0 : Fin 3) * 1 + 1 * 0 = b.val; omega
  | ⟨1, _⟩ => show win0_2.index t (1 : Fin 3) * 8 + 1 * q.val = n.val; omega
  | ⟨2, _⟩ => show win0_2.index t (2 : Fin 3) * 128 + 1 * k.val = k.val; omega

/-- The parameter arrays are staged whole: a block's element is the array's. -/
theorem w1_apply (c : Dev nD) (t : Fin cfg0.N) (a : Fin 384) (h : Fin 128) : iblk m c 3 t (ix2 a h) = V m c main_arg1 (ix2 a h) := by
  obtain ⟨-, -, -, -, -, -, -, -, -, -, -, -, e0, e1, -⟩ := idx_facts t
  show V m c main_arg1 (((cfg0.win 3).blk t).view.emb (ix2 a h)) = V m c main_arg1 (ix2 a h)
  refine congrArg _ (funext fun x => Fin.ext ?_)
  match x with
  | ⟨0, _⟩ => show win0_3.index t (0 : Fin 2) * 384 + 1 * a.val = a.val; omega
  | ⟨1, _⟩ => show win0_3.index t (1 : Fin 2) * 128 + 1 * h.val = h.val; omega
theorem w2_apply (c : Dev nD) (t : Fin cfg0.N) (a : Fin 128) (h : Fin 128) : iblk m c 5 t (ix2 a h) = V m c main_arg3 (ix2 a h) := by
  obtain ⟨-, -, -, -, -, -, -, -, -, -, -, -, -, -, -, e0, e1, -⟩ := idx_facts t
  show V m c main_arg3 (((cfg0.win 5).blk t).view.emb (ix2 a h)) = V m c main_arg3 (ix2 a h)
  refine congrArg _ (funext fun x => Fin.ext ?_)
  match x with
  | ⟨0, _⟩ => show win0_5.index t (0 : Fin 2) * 128 + 1 * a.val = a.val; omega
  | ⟨1, _⟩ => show win0_5.index t (1 : Fin 2) * 128 + 1 * h.val = h.val; omega
theorem b1_apply (c : Dev nD) (t : Fin cfg0.N) (h : Fin 128) : iblk m c 4 t (ix1 h) = V m c main_arg2 (ix1 h) := by
  obtain ⟨-, -, -, -, -, -, -, -, -, -, -, -, -, -, e0, -⟩ := idx_facts t
  show V m c main_arg2 (((cfg0.win 4).blk t).view.emb (ix1 h)) = V m c main_arg2 (ix1 h)
  refine congrArg _ (funext fun x => Fin.ext ?_)
  match x with
  | ⟨0, _⟩ => show win0_4.index t (0 : Fin 1) * 128 + 1 * h.val = h.val; omega
theorem b2_apply (c : Dev nD) (t : Fin cfg0.N) (h : Fin 128) : iblk m c 6 t (ix1 h) = V m c main_arg4 (ix1 h) := by
  obtain ⟨-, -, -, -, -, -, -, -, -, -, -, -, -, -, -, -, -, e0, -⟩ := idx_facts t
  show V m c main_arg4 (((cfg0.win 6).blk t).view.emb (ix1 h)) = V m c main_arg4 (ix1 h)
  refine congrArg _ (funext fun x => Fin.ext ?_)
  match x with
  | ⟨0, _⟩ => show win0_6.index t (0 : Fin 1) * 128 + 1 * h.val = h.val; omega
theorem gamma_apply (c : Dev nD) (t : Fin cfg0.N) (h : Fin 128) : iblk m c 7 t (ix1 h) = V m c main_arg5 (ix1 h) := by
  obtain ⟨-, -, -, -, -, -, -, -, -, -, -, -, -, -, -, -, -, -, e0, -⟩ := idx_facts t
  show V m c main_arg5 (((cfg0.win 7).blk t).view.emb (ix1 h)) = V m c main_arg5 (ix1 h)
  refine congrArg _ (funext fun x => Fin.ext ?_)
  match x with
  | ⟨0, _⟩ => show win0_7.index t (0 : Fin 1) * 128 + 1 * h.val = h.val; omega
theorem beta_apply (c : Dev nD) (t : Fin cfg0.N) (h : Fin 128) : iblk m c 8 t (ix1 h) = V m c main_arg6 (ix1 h) := by
  obtain ⟨-, -, -, -, -, -, -, -, -, -, -, -, -, -, -, -, -, -, -, e0⟩ := idx_facts t
  show V m c main_arg6 (((cfg0.win 8).blk t).view.emb (ix1 h)) = V m c main_arg6 (ix1 h)
  refine congrArg _ (funext fun x => Fin.ext ?_)
  match x with
  | ⟨0, _⟩ => show win0_8.index t (0 : Fin 1) * 128 + 1 * h.val = h.val; omega

/-! ## The neighbour rows inside a tile are the array's circular neighbours -/

/-- The previous row of row r of the tile at point t is row (n + 65535) mod 65536 of the array, n = tile·2048 + r:
    inside the tile it is the tile's row r - 1; at r = 0 it is the last of the eight rows before the tile. -/
theorem prev_eq (c : Dev nD) (t : Fin cfg0.N) (r : Fin 2048) (b : Fin 4) (n : Fin 65536)
    (hb : b.val = win0_9.index t (0 : Fin 3)) (hn : n.val = win0_9.index t (1 : Fin 3) * 2048 + r.val) :
    Cert.Spec.blkPrev (iblk m c 1 t) (iblk m c 0 t) r = fun k => V m c main_arg0 (ix3 b (Cert.Spec.prevN n) k) := by
  obtain ⟨-, -, -, -, -, -, -, -, -, -, h31, -⟩ := idx_facts t
  have hr := r.isLt
  funext k
  unfold Cert.Spec.blkPrev
  split
  · rename_i h0
    exact before_apply m c t 7 k b (Cert.Spec.prevN n) hb (by
      show (n.val + 65535) % 65536 = (win0_9.index t (1 : Fin 3) * 256 + 8191) % 8192 * 8 + 7
      omega)
  · rename_i h0
    exact tile_apply m c t ⟨(r.val + 2047) % 2048, Nat.mod_lt _ (by decide)⟩ k b (Cert.Spec.prevN n) hb (by
      show (n.val + 65535) % 65536 = win0_9.index t (1 : Fin 3) * 2048 + (r.val + 2047) % 2048
      omega)

/-- The next row likewise: row (n + 1) mod 65536; at r = 2047 the first of the eight rows after the tile. -/
theorem next_eq (c : Dev nD) (t : Fin cfg0.N) (r : Fin 2048) (b : Fin 4) (n : Fin 65536)
    (hb : b.val = win0_9.index t (0 : Fin 3)) (hn : n.val = win0_9.index t (1 : Fin 3) * 2048 + r.val) :
    Cert.Spec.blkNext (iblk m c 1 t) (iblk m c 2 t) r = fun k => V m c main_arg0 (ix3 b (Cert.Spec.nextN n) k) := by
  obtain ⟨-, -, -, -, -, -, -, -, -, -, h31, -⟩ := idx_facts t
  have hr := r.isLt
  funext k
  unfold Cert.Spec.blkNext
  split
  · rename_i h0
    exact after_apply m c t 0 k b (Cert.Spec.nextN n) hb (by
      show (n.val + 1) % 65536 = (win0_9.index t (1 : Fin 3) + 1) * 256 % 8192 * 8 + 0
      omega)
  · rename_i h0
    exact tile_apply m c t ⟨(r.val + 1) % 2048, Nat.mod_lt _ (by decide)⟩ k b (Cert.Spec.nextN n) hb (by
      show (n.val + 1) % 65536 = win0_9.index t (1 : Fin 3) * 2048 + (r.val + 1) % 2048
      omega)

/-! ## What a grid point writes back -/

/-- What point t writes back is tile t of the specification applied to the argument arrays as the region finds them. -/
theorem flushed_eq (c : Dev nD) (t : Fin cfg0.N) :
    (dats m 0 c).flushed 9 t = ((cfg0.win 9).blk t).view.read (Elt Ideal)
      (Cert.Spec.G (V m c main_arg0) (V m c main_arg1) (V m c main_arg2) (V m c main_arg3) (V m c main_arg4) (V m c main_arg5) (V m c main_arg6)) := by
  show (cfg0.win 9).cut (grid0.coords t) ((dats m 0 c).after 9 t) = _
  rw [after9]
  unfold outT
  rw [View.canon_unit_zero hz3]
  simp only [View.ld_unit_zero (S := S1x2048x128) hz3, View.ld_unit_zero (S := S1x8x128) hz3, View.ld_unit_zero (S := S384x128) hz2,
    View.ld_unit_zero (S := S128x128) hz2, View.ld_unit_zero (S := S128) hz1]
  funext j
  obtain ⟨z, r, k, rfl⟩ : ∃ (z : Fin 1) (r : Fin 2048) (k : Fin 128), j = ix3 z r k := ⟨j 0, j 1, j 2, eq_ix3 j⟩
  obtain rfl : z = 0 := Subsingleton.elim _ _
  obtain ⟨-, -, -, -, -, -, -, -, -, h3, h31, h0, -⟩ := idx_facts t
  have hr := r.isLt
  have hemb : ((cfg0.win 9).blk t).view.emb (ix3 (0 : Fin 1) r k)
      = ix3 (⟨win0_9.index t (0 : Fin 3), by omega⟩ : Fin 4) (⟨win0_9.index t (1 : Fin 3) * 2048 + r.val, by omega⟩ : Fin 65536) k := by
    funext a; apply Fin.ext
    match a with
    | ⟨0, _⟩ => show win0_9.index t (0 : Fin 3) * 1 + 1 * 0 = win0_9.index t (0 : Fin 3); omega
    | ⟨1, _⟩ => show win0_9.index t (1 : Fin 3) * 2048 + 1 * r.val = win0_9.index t (1 : Fin 3) * 2048 + r.val; omega
    | ⟨2, _⟩ => show win0_9.index t (2 : Fin 3) * 128 + 1 * k.val = k.val; omega
  show k0_pay1 (k0_pay2 (iblk m c 1 t))
        (k0_pay3 (iblk m c 1 t) (iblk m c 0 t) (iblk m c 2 t) (iblk m c 3 t) (iblk m c 4 t) (iblk m c 5 t))
        (iblk m c 6 t) (iblk m c 7 t) (iblk m c 8 t) (ix3 (0 : Fin 1) r k)
      = Cert.Spec.G (V m c main_arg0) (V m c main_arg1) (V m c main_arg2) (V m c main_arg3) (V m c main_arg4) (V m c main_arg5) (V m c main_arg6)
          (((cfg0.win 9).blk t).view.emb (ix3 (0 : Fin 1) r k))
  rw [hemb, Cert.Spec.G_ix3]
  refine (Cert.KernelIdeal.KValue.pay_apply (iblk m c 1 t) (iblk m c 0 t) (iblk m c 2 t) (iblk m c 3 t) (iblk m c 4 t) (iblk m c 5 t)
    (iblk m c 6 t) (iblk m c 7 t) (iblk m c 8 t) r k).trans ?_
  unfold Cert.Spec.blkOut Cert.Spec.Gat
  rw [prev_eq m c t r ⟨win0_9.index t (0 : Fin 3), by omega⟩ ⟨win0_9.index t (1 : Fin 3) * 2048 + r.val, by omega⟩ rfl rfl,
    next_eq m c t r ⟨win0_9.index t (0 : Fin 3), by omega⟩ ⟨win0_9.index t (1 : Fin 3) * 2048 + r.val, by omega⟩ rfl rfl]
  have hT : ∀ k', iblk m c 1 t (ix3 (0 : Fin 1) r k')
      = V m c main_arg0 (ix3 (⟨win0_9.index t (0 : Fin 3), by omega⟩ : Fin 4) (⟨win0_9.index t (1 : Fin 3) * 2048 + r.val, by omega⟩ : Fin 65536) k') :=
    fun k' => tile_apply m c t r k' _ _ rfl rfl
  simp only [hT, w1_apply, w2_apply, b1_apply, b2_apply, gamma_apply, beta_apply]

/-! ## The result array after the run -/

/-- An index of the result array is in point t's tile iff each coordinate is in the tile's range on its axis. -/
theorem mem_blk (t : Fin cfg0.N) (i : S4x65536x128.Idx) :
    i ∈ ((cfg0.win 9).blk t).view.set ↔ ∀ a : Fin 3, win0_9.index t a * S1x2048x128.size a ≤ (i a).val ∧ (i a).val < win0_9.index t a * S1x2048x128.size a + S1x2048x128.size a := by
  show i ∈ ((View.whole main_v0).slice (win0_9.rect t)).set ↔ _
  rw [View.set_slice_whole, Rect.mem_set_unit]
  exact Iff.rfl

/-- Every index of the result array is in some grid point's tile: the point of batch entry i 0 and tile (i 1) / 2048. -/
theorem cover (i : S4x65536x128.Idx) : ∃ t : Fin cfg0.N, (cfg0.win 9).flush t = true ∧ i ∈ ((cfg0.win 9).blk t).view.set := by
  have hi0 : (i 0).val < 4 := (i 0).isLt
  have hi1 : (i 1).val < 65536 := (i 1).isLt
  have hi2 : (i 2).val < 128 := (i 2).isLt
  obtain ⟨t, ht⟩ := idx_onto ⟨(i 0).val, hi0⟩ ⟨(i 1).val / 2048, by omega⟩
  have q0 : win0_9.index t (0 : Fin 3) = (i 0).val := congrFun ht 0
  have q1 : win0_9.index t (1 : Fin 3) = (i 1).val / 2048 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 2048 ≤ (i 1).val ∧ (i 1).val < win0_9.index t (1 : Fin 3) * 2048 + 2048; omega
  | ⟨2, _⟩ => show win0_9.index t (2 : Fin 3) * 128 ≤ (i 2).val ∧ (i 2).val < win0_9.index t (2 : Fin 3) * 128 + 128; omega

/-- The result array after the run is the specification applied to the argument arrays. -/
theorem final (c : Dev nD) : (dats m 0 c).arrAt 9 cfg0.N
    = Cert.Spec.G (V m c main_arg0) (V m c main_arg1) (V m c main_arg2) (V m c main_arg3) (V m c main_arg4) (V m c main_arg5) (V m c main_arg6) :=
  (dats m 0 c).arrAt_eq_of_cover 9 _ (fun t _ => flushed_eq m c t) cover

/-- The run of the idealized kernel's program: the result array ends at the specification of the argument arrays, the
    argument arrays unchanged. -/
theorem run : θ_run defs (onTc (τ := τ) (main (F := Ideal))) ⟨m, fun _ => 0, ρ⟩ (fun r => ∀ c : Dev nD,
      r.2.mem ((c.tc : Thread nD τ).loc main_v0)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final m c), (h c).2⟩) (run_out m ρ)

end Cert.KernelIdeal.HandValue

end
-- ==== Proof.RefOps.lean ====
/-
  The reference program as a straight line.

  The program's entry function calls five outlined functions (two circular shifts, the clamp at zero twice, and
  the mean squared deviation, which itself calls the three-operation selection).  Executing a call is executing the
  callee's body on the operands, so the whole program is one list of 66 operations over the program's buffers:
  the callee's operations stand at the call site, over the buffers that call names.
-/
import proofs.«161234_j46815143526781_2_alg».proof.Proof.Gen.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo
open Cert.ReferenceIdeal.Facts₀

variable {F : FTy → Type} [FloatOps F]

/-- The 66 operations in program order, each call replaced by its callee's operations over that call's buffers. -/
abbrev ops : List (HloOp τ sig (Elt F)) :=
  [ StableHlo.TRef.unary (TRef.of main_arg0 : TRef sig ⟨S4x65536x128, .f32⟩) main_call0.v0 (extractStridedSlice S4x1x128 ![0, 65535, 0] · slices_S4x65536x128_S4x1x128_0_65535_0),
    StableHlo.TRef.unary (TRef.of main_arg0 : TRef sig ⟨S4x65536x128, .f32⟩) main_call0.v1 (extractStridedSlice S4x65535x128 ![0, 0, 0] · slices_S4x65536x128_S4x65535x128_0_0_0),
    StableHlo.TRef.binary main_call0.v0 main_call0.v1 main_call0.v2 (fun a b => concatenate S4x65536x128 1 [⟨S4x1x128, a⟩, ⟨S4x65535x128, b⟩] concatenates_S4x1x128_S4x65535x128_S4x65536x128_d1),
    StableHlo.TRef.unary (TRef.of main_arg0 : TRef sig ⟨S4x65536x128, .f32⟩) main_call1.v0 (extractStridedSlice S4x65535x128 ![0, 1, 0] · slices_S4x65536x128_S4x65535x128_0_1_0),
    StableHlo.TRef.unary (TRef.of main_arg0 : TRef sig ⟨S4x65536x128, .f32⟩) main_call1.v1 (extractStridedSlice S4x1x128 ![0, 0, 0] · slices_S4x65536x128_S4x1x128_0_0_0),
    StableHlo.TRef.binary main_call1.v0 main_call1.v1 main_call1.v2 (fun a b => concatenate S4x65536x128 1 [⟨S4x65535x128, a⟩, ⟨S4x1x128, b⟩] concatenates_S4x65535x128_S4x1x128_S4x65536x128_d1),
    StableHlo.nary ![main_v0, main_arg0, main_v1] main_v2 (fun u => concatenate S4x65536x384 2 [⟨S4x65536x128, u 0⟩, ⟨S4x65536x128, u 1⟩, ⟨S4x65536x128, u 2⟩] concatenates_S4x65536x128_S4x65536x128_S4x65536x128_S4x65536x384_d2),
    StableHlo.binary main_v2 main_arg1 main_v3 ((fun l r => Host.dotGeneral dot_S4x65536x384_S384x128_S4x65536x128_2_0_01_1_n_n none l r) : (⟨S4x65536x384, .f32⟩ : BufTy).Contents (Elt F) → (⟨S384x128, .f32⟩ : BufTy).Contents (Elt F) → (⟨S4x65536x128, .f32⟩ : BufTy).Contents (Elt F)),
    StableHlo.unary main_arg2 main_v4 (broadcastInDim S1x1x128 ![2] bcast_S128_S1x1x128_2 : (⟨S128, .f32⟩ : BufTy).Contents (Elt F) → (⟨S1x1x128, .f32⟩ : BufTy).Contents (Elt F)),
    StableHlo.unary main_v4 main_v5 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v3 main_v5 main_v6 (addf : (⟨S4x65536x128, .f32⟩ : BufTy).Contents (Elt F) → (⟨S4x65536x128, .f32⟩ : BufTy).Contents (Elt F) → (⟨S4x65536x128, .f32⟩ : BufTy).Contents (Elt F)),
    StableHlo.TRef.nullary main_call2.cst (constant S_ .f32 0x00000000#32),
    StableHlo.TRef.unary main_call2.cst main_call2.v0 (broadcastInDim S4x65536x128 ![] bcast_S_S4x65536x128),
    StableHlo.TRef.binary (TRef.of main_v6 : TRef sig ⟨S4x65536x128, .f32⟩) main_call2.v0 main_call2.v1 maximumf,
    StableHlo.binary main_v7 main_arg3 main_v8 ((fun l r => Host.dotGeneral dot_S4x65536x128_S128x128_S4x65536x128_2_0_01_1_n_n none l r) : (⟨S4x65536x128, .f32⟩ : BufTy).Contents (Elt F) → (⟨S128x128, .f32⟩ : BufTy).Contents (Elt F) → (⟨S4x65536x128, .f32⟩ : BufTy).Contents (Elt F)),
    StableHlo.unary main_arg4 main_v9 (broadcastInDim S1x1x128 ![2] bcast_S128_S1x1x128_2 : (⟨S128, .f32⟩ : BufTy).Contents (Elt F) → (⟨S1x1x128, .f32⟩ : BufTy).Contents (Elt F)),
    StableHlo.unary main_v9 main_v10 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v8 main_v10 main_v11 (addf : (⟨S4x65536x128, .f32⟩ : BufTy).Contents (Elt F) → (⟨S4x65536x128, .f32⟩ : BufTy).Contents (Elt F) → (⟨S4x65536x128, .f32⟩ : BufTy).Contents (Elt F)),
    StableHlo.binary main_arg0 main_v11 main_v12 (addf : (⟨S4x65536x128, .f32⟩ : BufTy).Contents (Elt F) → (⟨S4x65536x128, .f32⟩ : BufTy).Contents (Elt F) → (⟨S4x65536x128, .f32⟩ : BufTy).Contents (Elt F)),
    StableHlo.nullary main_cst (constant S_ .f32 0x00000000#32),
    StableHlo.binary main_v12 main_cst main_v13 ((fun x v => Host.reduceAdd x v reducesTo_S4x65536x128_S4x65536_d2 h_S_) : (⟨S4x65536x128, .f32⟩ : BufTy).Contents (Elt F) → (⟨S_, .f32⟩ : BufTy).Contents (Elt F) → (⟨S4x65536, .f32⟩ : BufTy).Contents (Elt F)),
    StableHlo.unary main_v13 main_v14 (broadcastInDim S4x65536x1 ![0, 1] bcast_S4x65536_S4x65536x1_0_1 : (⟨S4x65536, .f32⟩ : BufTy).Contents (Elt F) → (⟨S4x65536x1, .f32⟩ : BufTy).Contents (Elt F)),
    StableHlo.nullary main_cst_0 (constant S_ .f32 0x43000000#32),
    StableHlo.unary main_cst_0 main_v15 (broadcastInDim S4x65536x1 ![] bcast_S_S4x65536x1 : (⟨S_, .f32⟩ : BufTy).Contents (Elt F) → (⟨S4x65536x1, .f32⟩ : BufTy).Contents (Elt F)),
    StableHlo.binary main_v14 main_v15 main_v16 (Host.divf : (⟨S4x65536x1, .f32⟩ : BufTy).Contents (Elt F) → (⟨S4x65536x1, .f32⟩ : BufTy).Contents (Elt F) → (⟨S4x65536x1, .f32⟩ : BufTy).Contents (Elt F)),
    StableHlo.nullary main_c (constantI S_ 32 0#32),
    StableHlo.TRef.nullary main_call3.cst (constant S_ .f32 0x00000000#32),
    StableHlo.TRef.binary (TRef.of main_v12 : TRef sig ⟨S4x65536x128, .f32⟩) main_call3.cst main_call3.v0 (fun x v => Host.reduceAdd x v reducesTo_S4x65536x128_S4x65536_d2 h_S_),
    StableHlo.TRef.unary main_call3.v0 main_call3.v1 (broadcastInDim S4x65536x1 ![0, 1] bcast_S4x65536_S4x65536x1_0_1),
    StableHlo.TRef.nullary main_call3.cst_0 (constant S_ .f32 0x43000000#32),
    StableHlo.TRef.unary main_call3.cst_0 main_call3.v2 (broadcastInDim S4x65536x1 ![] bcast_S_S4x65536x1),
    StableHlo.TRef.binary main_call3.v1 main_call3.v2 main_call3.v3 Host.divf,
    StableHlo.TRef.unary main_call3.v3 main_call3.v4 (broadcastInDim S4x65536x128 ![0, 1, 2] bcast_S4x65536x1_S4x65536x128_0_1_2),
    StableHlo.TRef.binary (TRef.of main_v12 : TRef sig ⟨S4x65536x128, .f32⟩) main_call3.v4 main_call3.v5 subf,
    StableHlo.TRef.binary main_call3.v5 main_call3.v5 main_call3.v6 mulf,
    StableHlo.TRef.unary (TRef.of main_c : TRef sig ⟨S_, .i32⟩) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S4x65536x128_S4x65536_d2 h_S_),
    StableHlo.TRef.unary main_call3.v9 main_call3.v10 (broadcastInDim S4x65536x1 ![0, 1] bcast_S4x65536_S4x65536x1_0_1),
    StableHlo.TRef.unary main_call3.v8 main_call3.v11 (broadcastInDim S4x65536x1 ![] bcast_S_S4x65536x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S4x65536x1 ![] bcast_S_S4x65536x1),
    StableHlo.TRef.ternary main_call3.v13 main_call3.v12 main_call3.call0.v1 main_call3.call0.v2 (fun p a b => select (broadcastInDim S4x65536x1 ![] bcast_S_S4x65536x1 p) a b),
    StableHlo.unary main_v16 main_v18 (broadcastInDim S4x65536x128 ![0, 1, 2] bcast_S4x65536x1_S4x65536x128_0_1_2 : (⟨S4x65536x1, .f32⟩ : BufTy).Contents (Elt F) → (⟨S4x65536x128, .f32⟩ : BufTy).Contents (Elt F)),
    StableHlo.binary main_v12 main_v18 main_v19 (subf : (⟨S4x65536x128, .f32⟩ : BufTy).Contents (Elt F) → (⟨S4x65536x128, .f32⟩ : BufTy).Contents (Elt F) → (⟨S4x65536x128, .f32⟩ : BufTy).Contents (Elt F)),
    StableHlo.nullary main_cst_1 (constant S_ .f32 0x3727C5AC#32),
    StableHlo.unary main_cst_1 main_v20 (broadcastInDim S4x65536x1 ![] bcast_S_S4x65536x1 : (⟨S_, .f32⟩ : BufTy).Contents (Elt F) → (⟨S4x65536x1, .f32⟩ : BufTy).Contents (Elt F)),
    StableHlo.binary main_v17 main_v20 main_v21 (addf : (⟨S4x65536x1, .f32⟩ : BufTy).Contents (Elt F) → (⟨S4x65536x1, .f32⟩ : BufTy).Contents (Elt F) → (⟨S4x65536x1, .f32⟩ : BufTy).Contents (Elt F)),
    StableHlo.unary main_v21 main_v22 (Host.rsqrt : (⟨S4x65536x1, .f32⟩ : BufTy).Contents (Elt F) → (⟨S4x65536x1, .f32⟩ : BufTy).Contents (Elt F)),
    StableHlo.unary main_v22 main_v23 (broadcastInDim S4x65536x128 ![0, 1, 2] bcast_S4x65536x1_S4x65536x128_0_1_2 : (⟨S4x65536x1, .f32⟩ : BufTy).Contents (Elt F) → (⟨S4x65536x128, .f32⟩ : BufTy).Contents (Elt F)),
    StableHlo.binary main_v19 main_v23 main_v24 (mulf : (⟨S4x65536x128, .f32⟩ : BufTy).Contents (Elt F) → (⟨S4x65536x128, .f32⟩ : BufTy).Contents (Elt F) → (⟨S4x65536x128, .f32⟩ : BufTy).Contents (Elt F)),
    StableHlo.unary main_arg5 main_v25 (broadcastInDim S1x1x128 ![2] bcast_S128_S1x1x128_2 : (⟨S128, .f32⟩ : BufTy).Contents (Elt F) → (⟨S1x1x128, .f32⟩ : BufTy).Contents (Elt F)),
    StableHlo.unary main_v25 main_v26 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v24 main_v26 main_v27 (mulf : (⟨S4x65536x128, .f32⟩ : BufTy).Contents (Elt F) → (⟨S4x65536x128, .f32⟩ : BufTy).Contents (Elt F) → (⟨S4x65536x128, .f32⟩ : BufTy).Contents (Elt F)),
    StableHlo.unary main_arg6 main_v28 (broadcastInDim S1x1x128 ![2] bcast_S128_S1x1x128_2 : (⟨S128, .f32⟩ : BufTy).Contents (Elt F) → (⟨S1x1x128, .f32⟩ : BufTy).Contents (Elt F)),
    StableHlo.unary main_v28 main_v29 (broadcastInDim S4x65536x128 ![0, 1, 2] bcast_S1x1x128_S4x65536x128_0_1_2 : (⟨S1x1x128, .f32⟩ : BufTy).Contents (Elt F) → (⟨S4x65536x128, .f32⟩ : BufTy).Contents (Elt F)),
    StableHlo.binary main_v27 main_v29 main_v30 (addf : (⟨S4x65536x128, .f32⟩ : BufTy).Contents (Elt F) → (⟨S4x65536x128, .f32⟩ : BufTy).Contents (Elt F) → (⟨S4x65536x128, .f32⟩ : BufTy).Contents (Elt F)),
    StableHlo.TRef.nullary main_call4.cst (constant S_ .f32 0x00000000#32),
    StableHlo.TRef.unary main_call4.cst main_call4.v0 (broadcastInDim S4x65536x128 ![] bcast_S_S4x65536x128),
    StableHlo.TRef.binary (TRef.of main_v30 : TRef sig ⟨S4x65536x128, .f32⟩) main_call4.v0 main_call4.v1 maximumf ]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the tensor core only. -/
theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub ..,
    nary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩

end Cert.ReferenceIdeal.RefOps

end
-- ==== Proof.RefMain.lean ====
/-
  The entry function is the straight line of its 66 operations.

  A program here is a finite tree of requests, and sequencing grafts the second program onto the leaves of the
  first.  Unfolding each callee at its call and carrying out the grafting turns the entry function into the chain
  of the 66 requests in order, which is what running the list one operation after another is.
-/
import proofs.«161234_j46815143526781_2_alg».proof.Proof.RefOps

noncomputable section

namespace Cert.ReferenceIdeal.RefMain

open Cert.ReferenceIdeal Cert.ReferenceIdeal.RefOps Idealize.ShloMosaic Idealize.ShloMosaic.TcCoe Idealize.SL.Sem Idealize.ShloMosaic.StableHlo

variable {F : FTy → Type} [FloatOps F]

set_option maxRecDepth 8192 in
/-- Both sides compute to the same chain of requests. -/
theorem main_eq (c : Dev nD) : main (F := F) c = seq ops := rfl

end Cert.ReferenceIdeal.RefMain

end
-- ==== Proof.RefTerm.lean ====
/-
  The reference's result as one term of its seven argument arrays.

  The reference computes, for x : [4, 65536, 128]:
    the rows shifted by one place in each direction along the node axis (circularly),
    the three arrays side by side along the last axis (384 entries per node),
    the product with W1 plus b1, clamped below at zero,
    the product with W2 plus b2, added to x,
    the mean over the last axis (sum divided by 128), the deviation from it,
    the mean squared deviation (sum of squared deviations divided by 128 - 0, where the quotient is kept
    when that divisor is positive and is a NaN otherwise),
    the deviation times the reciprocal square root of (that plus a small constant), times gamma, plus beta,
    clamped below at zero.
  Each stage below is the pure function of one operation, or of a few consecutive ones; `res` composes them.
-/
import proofs.«161234_j46815143526781_2_alg».proof.Proof.Gen.ReferenceIdeal

noncomputable section

namespace Cert.ReferenceIdeal.RefTerm

open Idealize.ShloMosaic Idealize.SL.Sem Cert.ReferenceIdeal
open Cert.ReferenceIdeal.Facts₀

variable {F : FTy → Type} [FloatOps F]

/-- Rows moved one place up the node axis, circularly: node n holds the row of node n - 1, node 0 the last row. -/
def rollPrev (x : FVec F S4x65536x128 .f32) : FVec F S4x65536x128 .f32 :=
  concatenate S4x65536x128 1
    [⟨S4x1x128, extractStridedSlice S4x1x128 ![0, 65535, 0] x slices_S4x65536x128_S4x1x128_0_65535_0⟩,
     ⟨S4x65535x128, extractStridedSlice S4x65535x128 ![0, 0, 0] x slices_S4x65536x128_S4x65535x128_0_0_0⟩]
    concatenates_S4x1x128_S4x65535x128_S4x65536x128_d1

/-- Rows moved one place down the node axis, circularly: node n holds the row of node n + 1, the last node row 0. -/
def rollNext (x : FVec F S4x65536x128 .f32) : FVec F S4x65536x128 .f32 :=
  concatenate S4x65536x128 1
    [⟨S4x65535x128, extractStridedSlice S4x65535x128 ![0, 1, 0] x slices_S4x65536x128_S4x65535x128_0_1_0⟩,
     ⟨S4x1x128, extractStridedSlice S4x1x128 ![0, 0, 0] x slices_S4x65536x128_S4x1x128_0_0_0⟩]
    concatenates_S4x65535x128_S4x1x128_S4x65536x128_d1

/-- Three arrays side by side along the last axis. -/
def cat3 (p c n : FVec F S4x65536x128 .f32) : FVec F S4x65536x384 .f32 :=
  concatenate S4x65536x384 2 [⟨S4x65536x128, p⟩, ⟨S4x65536x128, c⟩, ⟨S4x65536x128, n⟩]
    concatenates_S4x65536x128_S4x65536x128_S4x65536x128_S4x65536x384_d2

/-- A row of 128 entries repeated at every node. -/
def rowBc (v : FVec F S128 .f32) : FVec F S4x65536x128 .f32 :=
  broadcastInDim S4x65536x128 ![0, 1, 2] bcast_S1x1x128_S4x65536x128_0_1_2
    (broadcastInDim S1x1x128 ![2] bcast_S128_S1x1x128_2 v)

/-- One value per node repeated along the last axis. -/
def nodeBc (v : FVec F S4x65536x1 .f32) : FVec F S4x65536x128 .f32 :=
  broadcastInDim S4x65536x128 ![0, 1, 2] bcast_S4x65536x1_S4x65536x128_0_1_2 v

/-- A scalar repeated once per node. -/
def scalBc (v : FVec F S_ .f32) : FVec F S4x65536x1 .f32 :=
  broadcastInDim S4x65536x1 ![] bcast_S_S4x65536x1 v

/-- Clamped below at zero, entry by entry. -/
def reluT (a : FVec F S4x65536x128 .f32) : FVec F S4x65536x128 .f32 :=
  maximumf a (broadcastInDim S4x65536x128 ![] bcast_S_S4x65536x128 (constant S_ .f32 0x00000000#32))

/-- The hidden array: the 384 entries per node against W1, plus b1, clamped below at zero. -/
def hiddenT (c3 : FVec F S4x65536x384 .f32) (W1 : FVec F S384x128 .f32) (b1 : FVec F S128 .f32) :
    FVec F S4x65536x128 .f32 :=
  reluT (addf (Host.dotGeneral dot_S4x65536x384_S384x128_S4x65536x128_2_0_01_1_n_n none c3 W1) (rowBc b1))

/-- The array that is normalised: x plus (the hidden array against W2, plus b2). -/
def residT (x h : FVec F S4x65536x128 .f32) (W2 : FVec F S128x128 .f32) (b2 : FVec F S128 .f32) :
    FVec F S4x65536x128 .f32 :=
  addf x (addf (Host.dotGeneral dot_S4x65536x128_S128x128_S4x65536x128_2_0_01_1_n_n none h W2) (rowBc b2))

/-- The sum over the last axis, one value per node. -/
def rowSum (r : FVec F S4x65536x128 .f32) : FVec F S4x65536x1 .f32 :=
  broadcastInDim S4x65536x1 ![0, 1] bcast_S4x65536_S4x65536x1_0_1
    (Host.reduceAdd r (constant S_ .f32 0x00000000#32) reducesTo_S4x65536x128_S4x65536_d2 h_S_)

/-- The mean over the last axis: the sum divided by 128. -/
def meanT (r : FVec F S4x65536x128 .f32) : FVec F S4x65536x1 .f32 :=
  Host.divf (rowSum r) (scalBc (constant S_ .f32 0x43000000#32))

/-- The deviation from the mean. -/
def devT (r : FVec F S4x65536x128 .f32) : FVec F S4x65536x128 .f32 :=
  subf r (nodeBc (meanT r))

/-- The divisor of the mean squared deviation: 128 minus the integer 0 converted to a float. -/
def divisor : FVec F S_ .f32 :=
  subf (constant S_ .f32 0x43000000#32) (sitofp .f32 (constantI S_ 32 0#32))

/-- The mean squared deviation: the sum of squared deviations over the divisor where the divisor is positive,
    a NaN otherwise. -/
def varT (r : FVec F S4x65536x128 .f32) : FVec F S4x65536x1 .f32 :=
  select (broadcastInDim S4x65536x1 ![] bcast_S_S4x65536x1 (cmpf .ogt (divisor (F := F)) (constant S_ .f32 0x00000000#32)))
    (Host.divf (rowSum (mulf (devT r) (devT r))) (scalBc divisor))
    (scalBc (constant S_ .f32 0x7FC00000#32))

/-- The normalised array: deviation times the reciprocal square root of (mean squared deviation plus the small
    constant), times gamma, plus beta, clamped below at zero. -/
def normT (r : FVec F S4x65536x128 .f32) (g be : FVec F S128 .f32) : FVec F S4x65536x128 .f32 :=
  reluT (addf (mulf (mulf (devT r)
      (nodeBc (Host.rsqrt (addf (varT r) (scalBc (constant S_ .f32 0x3727C5AC#32)))))) (rowBc g)) (rowBc be))

/-- The reference's result as a function of its seven argument arrays. -/
def res (x : FVec F S4x65536x128 .f32) (W1 : FVec F S384x128 .f32) (b1 : FVec F S128 .f32)
    (W2 : FVec F S128x128 .f32) (b2 g be : FVec F S128 .f32) : FVec F S4x65536x128 .f32 :=
  normT (residT x (hiddenT (cat3 (rollPrev x) x (rollNext x)) W1 b1) W2 b2) g be

end Cert.ReferenceIdeal.RefTerm

end
-- ==== Proof.RefOut.lean ====
/-
  What the result buffer holds after the 66 operations, from any contents of the buffers.

  Running the list rewrites, operation by operation, the buffer each one writes and leaves every other buffer as
  it was.  Read at the result buffer, the last operation's function is applied to what its operand buffers hold
  after the 65 before it, and so on down to the seven argument buffers, which no operation writes: the value is the
  composition of the operations' functions, and that composition is the term of RefTerm.
-/
import proofs.«161234_j46815143526781_2_alg».proof.Proof.RefOps
import proofs.«161234_j46815143526781_2_alg».proof.Proof.RefTerm

noncomputable section

namespace Cert.ReferenceIdeal.RefOut

open Cert.ReferenceIdeal Cert.ReferenceIdeal.RefOps Idealize.ShloMosaic Idealize.ShloMosaic.TcCoe Idealize.SL.Sem Idealize.ShloMosaic.StableHlo

variable {F : FTy → Type} [FloatOps F]

-- the shape operations and the sum are kept folded: the equation never looks inside them
attribute [local irreducible] Host.reduceAdd concatenate extractStridedSlice broadcastInDim in
set_option maxRecDepth 8192 in
set_option maxHeartbeats 400000 in
/-- The fold of the operations' results, read at the result buffer, is the composed term of the argument buffers'
    contents: each step decides which buffer an operation writes, and the moves between a buffer's own type and
    the type its value was declared at are the identity. -/
theorem out_eq (V : Valuation τ sig (Elt F)) :
    after ops V (main_v31 : DevRef τ sig)
      = RefTerm.res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  simp only [after_cons, after_nil]
  rfl

end Cert.ReferenceIdeal.RefOut

end
-- ==== Proof.RefArgs.lean ====
/-
  The seven argument buffers are written by no operation, so after the 66 operations each holds what it held.
-/
import proofs.«161234_j46815143526781_2_alg».proof.Proof.RefOps

noncomputable section

namespace Cert.ReferenceIdeal.RefArgs

open Cert.ReferenceIdeal Cert.ReferenceIdeal.RefOps Idealize.ShloMosaic Idealize.ShloMosaic.TcCoe Idealize.SL.Sem Idealize.ShloMosaic.StableHlo

variable {F : FTy → Type} [FloatOps F]

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

end Cert.ReferenceIdeal.RefArgs

end
-- ==== Proof.RefRun.lean ====
/-
  The reference's run, read back.

  The signature scopes no buffer and no semaphore and every operation touches tensor-core buffers only, so from
  any memory with zero counters every weakly fair execution of the entry function terminates, and each buffer ends
  at the fold of the operations' results over what the launch gave it.  At the result buffer that fold is the
  composed term of the seven argument arrays; at each argument buffer it is the argument, unchanged.
-/
import proofs.«161234_j46815143526781_2_alg».proof.Proof.RefMain
import proofs.«161234_j46815143526781_2_alg».proof.Proof.RefOut
import proofs.«161234_j46815143526781_2_alg».proof.Proof.RefArgs
import Idealize.ShloMosaic.PureOps.Ideal

noncomputable section

namespace Cert.ReferenceIdeal.RefRun

open Cert.ReferenceIdeal Cert.ReferenceIdeal.RefOps Idealize.ShloMosaic Idealize.ShloMosaic.TcCoe Idealize.SL.Sem Idealize.ShloMosaic.StableHlo

variable {F : FTy → Type} [FloatOps F]

/-- From any memory with zero counters, every weakly fair execution of the reference terminates with the result
    buffer at the composed term of the argument arrays' launch contents, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31) = RefTerm.res (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => ⟨(h c main_v31).trans (RefOut.out_eq (F := Ideal) _),
      (h c main_arg0).trans (RefArgs.arg0_eq (F := Ideal) _),
      (h c main_arg1).trans (RefArgs.arg1_eq (F := Ideal) _),
      (h c main_arg2).trans (RefArgs.arg2_eq (F := Ideal) _),
      (h c main_arg3).trans (RefArgs.arg3_eq (F := Ideal) _),
      (h c main_arg4).trans (RefArgs.arg4_eq (F := Ideal) _),
      (h c main_arg5).trans (RefArgs.arg5_eq (F := Ideal) _),
      (h c main_arg6).trans (RefArgs.arg6_eq (F := Ideal) _)⟩)
    (run_seq scopedRefs_eq scopedSems_eq (defs (F := Ideal)) (main (F := Ideal)) (fun _ => ops (F := Ideal))
      (RefMain.main_eq (F := Ideal)) (fun _ => ops_sub (F := Ideal)) m ρ)

end Cert.ReferenceIdeal.RefRun

end
-- ==== Proof.RefStagesLayout.lean ====
/-
  The reference's two circular shifts of the node axis, and its laying of three arrays side by side,
  each read at one index.

  A circular shift by one along the node axis is two slices and a concatenation: the last row in
  front of the first 65535 rows (shift forward), or rows 1 … 65535 in front of row 0 (shift back).
  At node n the first is the input at node n - 1 and the second the input at node n + 1, both
  circularly.  The concatenation of three [4, 65536, 128] arrays along the last axis is, at entry k of
  384, entry k of the first for k < 128, entry k - 128 of the second for k < 256, entry k - 256 of the
  third beyond: the specification's `cat` of the three rows at that node.
-/
import proofs.«161234_j46815143526781_2_alg».proof.ReferenceIdeal
import proofs.«161234_j46815143526781_2_alg».proof.Proof.Spec
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal

/-- The last row laid in front of rows 0 … 65534: at node n this is the input at the circular
    predecessor of n.  Node 0 falls in the one-row piece, which is row 65535 of the input; a node n ≥ 1
    falls at row n - 1 of the second piece, which is row n - 1 of the input. -/
theorem rollFwd_apply (x : FVec Ideal S4x65536x128 .f32)
    (h0 : S4x65536x128.Slices ![0, 65535, 0] S4x1x128)
    (h1 : S4x65536x128.Slices ![0, 0, 0] S4x65535x128)
    (hc : Shape.Concatenates [S4x1x128, S4x65535x128] S4x65536x128 1)
    (b : Fin 4) (n : Fin 65536) (c : Fin 128) :
    concatenate S4x65536x128 1 [⟨S4x1x128, extractStridedSlice S4x1x128 ![0, 65535, 0] x h0⟩,
      ⟨S4x65535x128, extractStridedSlice S4x65535x128 ![0, 0, 0] x h1⟩] hc (ix3 b n c)
      = x (ix3 b (Cert.Spec.prevN n) c) := by
  have hlt := n.isLt
  by_cases hn : n.val = 0
  · refine (concatenate_pair_apply_left 1 _ _ hc (ix3 b n c) rfl (ix3 b (0 : Fin 1) c) (fun a => by
      match a with
      | ⟨0, _⟩ => rfl
      | ⟨1, _⟩ => exact hn.symm
      | ⟨2, _⟩ => rfl)).trans ?_
    refine slice3_axis1_apply 65535 x h0 b 0 c (Cert.Spec.prevN n) ?_
    show (n.val + 65535) % 65536 = 65535 + 0
    omega
  · refine (concatenate_pair_apply_right 1 _ _ hc (ix3 b n c) rfl rfl
      (ix3 b (⟨n.val - 1, by omega⟩ : Fin 65535) c) (fun a ha => by
      match a, ha with
      | ⟨0, _⟩, _ => rfl
      | ⟨1, _⟩, ha => exact absurd (Fin.ext rfl) ha
      | ⟨2, _⟩, _ => rfl) (by show (n.val - 1) + 1 = n.val; omega)).trans ?_
    refine slice3_axis1_apply 0 x h1 b _ c (Cert.Spec.prevN n) ?_
    show (n.val + 65535) % 65536 = 0 + (n.val - 1)
    omega

/-- Rows 1 … 65535 laid in front of row 0: at node n this is the input at the circular successor of
    n.  A node n < 65535 falls at row n of the first piece, which is row n + 1 of the input; node 65535
    falls in the one-row piece, which is row 0 of the input. -/
theorem rollBack_apply (x : FVec Ideal S4x65536x128 .f32)
    (h0 : S4x65536x128.Slices ![0, 1, 0] S4x65535x128)
    (h1 : S4x65536x128.Slices ![0, 0, 0] S4x1x128)
    (hc : Shape.Concatenates [S4x65535x128, S4x1x128] S4x65536x128 1)
    (b : Fin 4) (n : Fin 65536) (c : Fin 128) :
    concatenate S4x65536x128 1 [⟨S4x65535x128, extractStridedSlice S4x65535x128 ![0, 1, 0] x h0⟩,
      ⟨S4x1x128, extractStridedSlice S4x1x128 ![0, 0, 0] x h1⟩] hc (ix3 b n c)
      = x (ix3 b (Cert.Spec.nextN n) c) := by
  have hlt := n.isLt
  by_cases hn : n.val < 65535
  · refine (concatenate_pair_apply_left 1 _ _ hc (ix3 b n c) rfl (ix3 b (⟨n.val, hn⟩ : Fin 65535) c) (fun a => by
      match a with
      | ⟨0, _⟩ => rfl
      | ⟨1, _⟩ => rfl
      | ⟨2, _⟩ => rfl)).trans ?_
    refine slice3_axis1_apply 1 x h0 b _ c (Cert.Spec.nextN n) ?_
    show (n.val + 1) % 65536 = 1 + n.val
    omega
  · refine (concatenate_pair_apply_right 1 _ _ hc (ix3 b n c) rfl rfl
      (ix3 b (0 : Fin 1) c) (fun a ha => by
      match a, ha with
      | ⟨0, _⟩, _ => rfl
      | ⟨1, _⟩, ha => exact absurd (Fin.ext rfl) ha
      | ⟨2, _⟩, _ => rfl) (by show 0 + 65535 = n.val; omega)).trans ?_
    refine slice3_axis1_apply 0 x h1 b 0 c (Cert.Spec.nextN n) ?_
    show (n.val + 1) % 65536 = 0 + 0
    omega

/-- Three arrays side by side along the last axis, at node (b, m) and entry k of 384: the
    specification's `cat` of the three arrays' rows at that node.  Entry k lies in the piece k / 128,
    at k less the 0, 128 or 256 entries before that piece. -/
theorem cat3_apply (p c n : FVec Ideal S4x65536x128 .f32)
    (h : Shape.Concatenates [S4x65536x128, S4x65536x128, S4x65536x128] S4x65536x384 2)
    (b : Fin 4) (m : Fin 65536) (k : Fin 384) :
    concatenate S4x65536x384 2 [⟨S4x65536x128, p⟩, ⟨S4x65536x128, c⟩, ⟨S4x65536x128, n⟩] h (ix3 b m k)
      = Cert.Spec.cat (fun e => p (ix3 b m e)) (fun e => c (ix3 b m e)) (fun e => n (ix3 b m e)) k := by
  have hlt := k.isLt
  unfold Cert.Spec.cat
  by_cases h1 : k.val < 128
  · rw [dif_pos h1]
    exact concatenate_apply_piece 2 ([⟨S4x65536x128, p⟩, ⟨S4x65536x128, c⟩, ⟨S4x65536x128, n⟩] : List ((s : Shape) × (s.Idx → Ideal .f32))) h (ix3 b m k) 0 (by simp) S4x65536x128 p rfl rfl 0 rfl
      (ix3 b m (⟨k.val, h1⟩ : Fin 128)) (fun a ha => by
        match a, ha with
        | ⟨0, _⟩, _ => rfl
        | ⟨1, _⟩, _ => rfl
        | ⟨2, _⟩, ha => exact absurd (Fin.ext rfl) ha) (by show 0 + k.val = k.val; omega)
  · rw [dif_neg h1]
    by_cases h2 : k.val < 256
    · rw [dif_pos h2]
      exact concatenate_apply_piece 2 ([⟨S4x65536x128, p⟩, ⟨S4x65536x128, c⟩, ⟨S4x65536x128, n⟩] : List ((s : Shape) × (s.Idx → Ideal .f32))) h (ix3 b m k) 1 (by simp) S4x65536x128 c rfl rfl 128 rfl
        (ix3 b m (⟨k.val - 128, by omega⟩ : Fin 128)) (fun a ha => by
          match a, ha with
          | ⟨0, _⟩, _ => rfl
          | ⟨1, _⟩, _ => rfl
          | ⟨2, _⟩, ha => exact absurd (Fin.ext rfl) ha) (by show 128 + (k.val - 128) = k.val; omega)
    · rw [dif_neg h2]
      exact concatenate_apply_piece 2 ([⟨S4x65536x128, p⟩, ⟨S4x65536x128, c⟩, ⟨S4x65536x128, n⟩] : List ((s : Shape) × (s.Idx → Ideal .f32))) h (ix3 b m k) 2 (by simp) S4x65536x128 n rfl rfl 256 rfl
        (ix3 b m (⟨k.val - 256, by omega⟩ : Fin 128)) (fun a ha => by
          match a, ha with
          | ⟨0, _⟩, _ => rfl
          | ⟨1, _⟩, _ => rfl
          | ⟨2, _⟩, ha => exact absurd (Fin.ext rfl) ha) (by show 256 + (k.val - 256) = k.val; omega)

end Cert.ReferenceIdeal.RefValue

end
-- ==== Proof.RefStagesDot.lean ====
/-
  The reference's two matrix products, each read at one index.

  Both contract the last axis of a [4, 65536, K] array against the first axis of a [K, 128] matrix
  (K = 384 for the first, 128 for the second), with no batch axis.  At the exact values the product at
  node (b, n), column j is the plain sum over k of the left operand at (b, n, k) times the right at
  (k, j): the contraction index has one coordinate, which a bijection with Fin K names, and on each
  operand axis the product's dimension numbers pick either an output coordinate or that one coordinate.
-/
import proofs.«161234_j46815143526781_2_alg».proof.Proof.Gen.ReferenceIdeal
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx Cert.ReferenceIdeal

/-! ## The first product: 384 entries against W1 -/

/-- Which coordinate each operand axis of the first product reads: the two node axes of the left operand are the output's, its last axis the contraction's; the right operand's first axis is the contraction's, its second the output's column. -/
theorem dotA_lhs_0 (i : S4x65536x128.Idx) (q : dot_S4x65536x384_S384x128_S4x65536x128_2_0_01_1_n_n.contr.Idx) :
    (dot_S4x65536x384_S384x128_S4x65536x128_2_0_01_1_n_n.lhsIdx i q 0).val = (i 0).val := by
  unfold DotDims.lhsIdx
  rw [dif_neg (show ¬(0 : Fin S4x65536x384.rank) ∈ dot_S4x65536x384_S384x128_S4x65536x128_2_0_01_1_n_n.lhsBatch by decide),
    dif_pos (show (0 : Fin S4x65536x384.rank) ∈ dot_S4x65536x384_S384x128_S4x65536x128_2_0_01_1_n_n.lhsNonContracting by decide)]
  rfl
theorem dotA_lhs_1 (i : S4x65536x128.Idx) (q : dot_S4x65536x384_S384x128_S4x65536x128_2_0_01_1_n_n.contr.Idx) :
    (dot_S4x65536x384_S384x128_S4x65536x128_2_0_01_1_n_n.lhsIdx i q 1).val = (i 1).val := by
  unfold DotDims.lhsIdx
  rw [dif_neg (show ¬(1 : Fin S4x65536x384.rank) ∈ dot_S4x65536x384_S384x128_S4x65536x128_2_0_01_1_n_n.lhsBatch by decide),
    dif_pos (show (1 : Fin S4x65536x384.rank) ∈ dot_S4x65536x384_S384x128_S4x65536x128_2_0_01_1_n_n.lhsNonContracting by decide)]
  rfl
theorem dotA_lhs_2 (i : S4x65536x128.Idx) (q : dot_S4x65536x384_S384x128_S4x65536x128_2_0_01_1_n_n.contr.Idx) :
    (dot_S4x65536x384_S384x128_S4x65536x128_2_0_01_1_n_n.lhsIdx i q 2).val = (q ⟨0, by decide⟩).val :=
  dot_S4x65536x384_S384x128_S4x65536x128_2_0_01_1_n_n.lhsIdx_val_of_single rfl i q
theorem dotA_rhs_0 (i : S4x65536x128.Idx) (q : dot_S4x65536x384_S384x128_S4x65536x128_2_0_01_1_n_n.contr.Idx) :
    (dot_S4x65536x384_S384x128_S4x65536x128_2_0_01_1_n_n.rhsIdx i q 0).val = (q ⟨0, by decide⟩).val :=
  dot_S4x65536x384_S384x128_S4x65536x128_2_0_01_1_n_n.rhsIdx_val_of_single rfl i q
theorem dotA_rhs_1 (i : S4x65536x128.Idx) (q : dot_S4x65536x384_S384x128_S4x65536x128_2_0_01_1_n_n.contr.Idx) :
    (dot_S4x65536x384_S384x128_S4x65536x128_2_0_01_1_n_n.rhsIdx i q 1).val = (i 2).val := by
  unfold DotDims.rhsIdx
  rw [dif_neg (show ¬(1 : Fin S384x128.rank) ∈ dot_S4x65536x384_S384x128_S4x65536x128_2_0_01_1_n_n.rhsBatch by decide),
    dif_pos (show (1 : Fin S384x128.rank) ∈ dot_S4x65536x384_S384x128_S4x65536x128_2_0_01_1_n_n.rhsNonContracting by decide)]
  rfl

/-- The first product at node (b, n), column j: the sum over the 384 entries of the row times column j of the matrix. -/
theorem dotA_apply (l : FVec Ideal S4x65536x384 .f32) (r : FVec Ideal S384x128 .f32)
    (b : Fin 4) (n : Fin 65536) (j : Fin 128) :
    Host.dotGeneral (F := Ideal) dot_S4x65536x384_S384x128_S4x65536x128_2_0_01_1_n_n none l r (ix3 b n j)
      = ∑ k : Fin 384, l (ix3 b n k) * r (ix2 k j) := by
  simp only [Host.dotGeneral]
  rw [Ideal.dotGeneral_apply, ← Equiv.sum_comp (contrEquiv1 dot_S4x65536x384_S384x128_S4x65536x128_2_0_01_1_n_n 384 rfl rfl).symm]
  refine Finset.sum_congr rfl fun k _ => ?_
  have hk := contrEquiv1_symm_val dot_S4x65536x384_S384x128_S4x65536x128_2_0_01_1_n_n 384 rfl rfl k
  have el : dot_S4x65536x384_S384x128_S4x65536x128_2_0_01_1_n_n.lhsIdx (ix3 b n j) ((contrEquiv1 dot_S4x65536x384_S384x128_S4x65536x128_2_0_01_1_n_n 384 rfl rfl).symm k) = ix3 b n k :=
    funext fun a => Fin.ext (by
      match a with
      | ⟨0, _⟩ => exact dotA_lhs_0 _ _
      | ⟨1, _⟩ => exact dotA_lhs_1 _ _
      | ⟨2, _⟩ => exact (dotA_lhs_2 _ _).trans hk)
  have er : dot_S4x65536x384_S384x128_S4x65536x128_2_0_01_1_n_n.rhsIdx (ix3 b n j) ((contrEquiv1 dot_S4x65536x384_S384x128_S4x65536x128_2_0_01_1_n_n 384 rfl rfl).symm k) = ix2 k j :=
    funext fun a => Fin.ext (by
      match a with
      | ⟨0, _⟩ => exact (dotA_rhs_0 _ _).trans hk
      | ⟨1, _⟩ => exact dotA_rhs_1 _ _)
  rw [el, er]

/-! ## The second product: 128 entries against W2 -/

/-- The same reading of the second product's operand axes. -/
theorem dotB_lhs_0 (i : S4x65536x128.Idx) (q : dot_S4x65536x128_S128x128_S4x65536x128_2_0_01_1_n_n.contr.Idx) :
    (dot_S4x65536x128_S128x128_S4x65536x128_2_0_01_1_n_n.lhsIdx i q 0).val = (i 0).val := by
  unfold DotDims.lhsIdx
  rw [dif_neg (show ¬(0 : Fin S4x65536x128.rank) ∈ dot_S4x65536x128_S128x128_S4x65536x128_2_0_01_1_n_n.lhsBatch by decide),
    dif_pos (show (0 : Fin S4x65536x128.rank) ∈ dot_S4x65536x128_S128x128_S4x65536x128_2_0_01_1_n_n.lhsNonContracting by decide)]
  rfl
theorem dotB_lhs_1 (i : S4x65536x128.Idx) (q : dot_S4x65536x128_S128x128_S4x65536x128_2_0_01_1_n_n.contr.Idx) :
    (dot_S4x65536x128_S128x128_S4x65536x128_2_0_01_1_n_n.lhsIdx i q 1).val = (i 1).val := by
  unfold DotDims.lhsIdx
  rw [dif_neg (show ¬(1 : Fin S4x65536x128.rank) ∈ dot_S4x65536x128_S128x128_S4x65536x128_2_0_01_1_n_n.lhsBatch by decide),
    dif_pos (show (1 : Fin S4x65536x128.rank) ∈ dot_S4x65536x128_S128x128_S4x65536x128_2_0_01_1_n_n.lhsNonContracting by decide)]
  rfl
theorem dotB_lhs_2 (i : S4x65536x128.Idx) (q : dot_S4x65536x128_S128x128_S4x65536x128_2_0_01_1_n_n.contr.Idx) :
    (dot_S4x65536x128_S128x128_S4x65536x128_2_0_01_1_n_n.lhsIdx i q 2).val = (q ⟨0, by decide⟩).val :=
  dot_S4x65536x128_S128x128_S4x65536x128_2_0_01_1_n_n.lhsIdx_val_of_single rfl i q
theorem dotB_rhs_0 (i : S4x65536x128.Idx) (q : dot_S4x65536x128_S128x128_S4x65536x128_2_0_01_1_n_n.contr.Idx) :
    (dot_S4x65536x128_S128x128_S4x65536x128_2_0_01_1_n_n.rhsIdx i q 0).val = (q ⟨0, by decide⟩).val :=
  dot_S4x65536x128_S128x128_S4x65536x128_2_0_01_1_n_n.rhsIdx_val_of_single rfl i q
theorem dotB_rhs_1 (i : S4x65536x128.Idx) (q : dot_S4x65536x128_S128x128_S4x65536x128_2_0_01_1_n_n.contr.Idx) :
    (dot_S4x65536x128_S128x128_S4x65536x128_2_0_01_1_n_n.rhsIdx i q 1).val = (i 2).val := by
  unfold DotDims.rhsIdx
  rw [dif_neg (show ¬(1 : Fin S128x128.rank) ∈ dot_S4x65536x128_S128x128_S4x65536x128_2_0_01_1_n_n.rhsBatch by decide),
    dif_pos (show (1 : Fin S128x128.rank) ∈ dot_S4x65536x128_S128x128_S4x65536x128_2_0_01_1_n_n.rhsNonContracting by decide)]
  rfl

/-- The second product at node (b, n), column j: the sum over the 128 entries of the row times column j of the matrix. -/
theorem dotB_apply (l : FVec Ideal S4x65536x128 .f32) (r : FVec Ideal S128x128 .f32)
    (b : Fin 4) (n : Fin 65536) (j : Fin 128) :
    Host.dotGeneral (F := Ideal) dot_S4x65536x128_S128x128_S4x65536x128_2_0_01_1_n_n none l r (ix3 b n j)
      = ∑ k : Fin 128, l (ix3 b n k) * r (ix2 k j) := by
  simp only [Host.dotGeneral]
  rw [Ideal.dotGeneral_apply, ← Equiv.sum_comp (contrEquiv1 dot_S4x65536x128_S128x128_S4x65536x128_2_0_01_1_n_n 128 rfl rfl).symm]
  refine Finset.sum_congr rfl fun k _ => ?_
  have hk := contrEquiv1_symm_val dot_S4x65536x128_S128x128_S4x65536x128_2_0_01_1_n_n 128 rfl rfl k
  have el : dot_S4x65536x128_S128x128_S4x65536x128_2_0_01_1_n_n.lhsIdx (ix3 b n j) ((contrEquiv1 dot_S4x65536x128_S128x128_S4x65536x128_2_0_01_1_n_n 128 rfl rfl).symm k) = ix3 b n k :=
    funext fun a => Fin.ext (by
      match a with
      | ⟨0, _⟩ => exact dotB_lhs_0 _ _
      | ⟨1, _⟩ => exact dotB_lhs_1 _ _
      | ⟨2, _⟩ => exact (dotB_lhs_2 _ _).trans hk)
  have er : dot_S4x65536x128_S128x128_S4x65536x128_2_0_01_1_n_n.rhsIdx (ix3 b n j) ((contrEquiv1 dot_S4x65536x128_S128x128_S4x65536x128_2_0_01_1_n_n 128 rfl rfl).symm k) = ix2 k j :=
    funext fun a => Fin.ext (by
      match a with
      | ⟨0, _⟩ => exact (dotB_rhs_0 _ _).trans hk
      | ⟨1, _⟩ => exact dotB_rhs_1 _ _)
  rw [el, er]

end Cert.ReferenceIdeal.RefValue

end
-- ==== Proof.RefStagesBcast.lean ====
/-
  The reference's broadcasts, each read at one index.

  A row of 128 entries is first given two leading unit axes and then repeated over the 4 × 65536
  nodes: at node (b, n), entry j it is the row's entry j.  A value per node, held as [4, 65536], is
  given a trailing unit axis, and a [4, 65536, 1] array is repeated along the last axis: at (b, n, j)
  it is the node's one value.  A scalar broadcast to any shape is that scalar everywhere.  Each
  reading names the operand index by coordinates: on an operand axis of extent one the coordinate is 0,
  on any other it is the result's coordinate on the axis the dimension map sends it to.
-/
import proofs.«161234_j46815143526781_2_alg».proof.ReferenceIdeal
import Idealize.ShloMosaic.Lib.IdealHost
import Idealize.ShloMosaic.Lib.Pipeline.Value

noncomputable section

namespace Cert.ReferenceIdeal.RefValue

open Idealize.ShloMosaic Idealize.ShloMosaic.ValueIdx Cert.ReferenceIdeal

variable {α : Type}

/-- A row given two leading unit axes: entry (0, 0, j) is the row's entry j. -/
theorem bcRowUnit_apply (v : S128.Idx → α) (h : S128.BroadcastsInDim S1x1x128 (![2] : Fin 1 → Fin S1x1x128.rank))
    (j : Fin 128) : broadcastInDim S1x1x128 ![2] h v (ix3 (0 : Fin 1) (0 : Fin 1) j) = v (ix1 j) :=
  broadcastInDim_apply _ h v _ (ix1 j) (fun a => by
    match a with
    | ⟨0, _⟩ => exact (if_neg (show ¬(128 : Nat) = 1 by decide)).symm)

/-- A [1, 1, 128] array repeated over the nodes: entry (b, n, j) is its entry (0, 0, j). -/
theorem bcRowNodes_apply (v : S1x1x128.Idx → α)
    (h : S1x1x128.BroadcastsInDim S4x65536x128 (![0, 1, 2] : Fin 3 → Fin S4x65536x128.rank))
    (b : Fin 4) (n : Fin 65536) (j : Fin 128) :
    broadcastInDim S4x65536x128 ![0, 1, 2] h v (ix3 b n j) = v (ix3 (0 : Fin 1) (0 : Fin 1) j) :=
  broadcastInDim_apply _ h v _ (ix3 (0 : Fin 1) (0 : Fin 1) j) (fun a => by
    match a with
    | ⟨0, _⟩ => exact (if_pos rfl).symm
    | ⟨1, _⟩ => exact (if_pos rfl).symm
    | ⟨2, _⟩ => exact (if_neg (show ¬(128 : Nat) = 1 by decide)).symm)

/-- The two together: a row repeated at every node reads the row's entry j at (b, n, j). -/
theorem bcRow_apply (v : S128.Idx → α) (h1 : S128.BroadcastsInDim S1x1x128 (![2] : Fin 1 → Fin S1x1x128.rank))
    (h2 : S1x1x128.BroadcastsInDim S4x65536x128 (![0, 1, 2] : Fin 3 → Fin S4x65536x128.rank))
    (b : Fin 4) (n : Fin 65536) (j : Fin 128) :
    broadcastInDim S4x65536x128 ![0, 1, 2] h2 (broadcastInDim S1x1x128 ![2] h1 v) (ix3 b n j) = v (ix1 j) :=
  (bcRowNodes_apply _ h2 b n j).trans (bcRowUnit_apply v h1 j)

/-- A value per node given a trailing unit axis: entry (b, n, 0) is the value at (b, n). -/
theorem bcKeep_apply (v : S4x65536.Idx → α)
    (h : S4x65536.BroadcastsInDim S4x65536x1 (![0, 1] : Fin 2 → Fin S4x65536x1.rank))
    (b : Fin 4) (n : Fin 65536) :
    broadcastInDim S4x65536x1 ![0, 1] h v (ix3 b n (0 : Fin 1)) = v (ix2 b n) :=
  broadcastInDim_apply _ h v _ (ix2 b n) (fun a => by
    match a with
    | ⟨0, _⟩ => exact (if_neg (show ¬(4 : Nat) = 1 by decide)).symm
    | ⟨1, _⟩ => exact (if_neg (show ¬(65536 : Nat) = 1 by decide)).symm)

/-- A [4, 65536, 1] array repeated along the last axis: entry (b, n, j) is its entry (b, n, 0). -/
theorem bcNode_apply (v : S4x65536x1.Idx → α)
    (h : S4x65536x1.BroadcastsInDim S4x65536x128 (![0, 1, 2] : Fin 3 → Fin S4x65536x128.rank))
    (b : Fin 4) (n : Fin 65536) (j : Fin 128) :
    broadcastInDim S4x65536x128 ![0, 1, 2] h v (ix3 b n j) = v (ix3 b n (0 : Fin 1)) :=
  broadcastInDim_apply _ h v _ (ix3 b n (0 : Fin 1)) (fun a => by
    match a with
    | ⟨0, _⟩ => exact (if_neg (show ¬(4 : Nat) = 1 by decide)).symm
    | ⟨1, _⟩ => exact (if_neg (show ¬(65536 : Nat) = 1 by decide)).symm
    | ⟨2, _⟩ => exact (if_pos rfl).symm)

/-- A scalar repeated once per node is the scalar. -/
theorem bcScalNode_apply (v : S_.Idx → α) (h : S_.BroadcastsInDim S4x65536x1 (![] : Fin 0 → Fin S4x65536x1.rank))
    (i : S4x65536x1.Idx) : broadcastInDim S4x65536x1 ![] h v i = v ix0 :=
  broadcastInDim_scalar_apply h v i

/-- A scalar repeated at every entry of every node is the scalar. -/
theorem bcScalAll_apply (v : S_.Idx → α) (h : S_.BroadcastsInDim S4x65536x128 (![] : Fin 0 → Fin S4x65536x128.rank))
    (i : S4x65536x128.Idx) : broadcastInDim S4x65536x128 ![] h v i = v ix0 :=
  broadcastInDim_scalar_apply h v i

end Cert.ReferenceIdeal.RefValue

end
-- ==== Proof.RefStagesSum.lean ====
/-
  The reference's sum over the last axis, and the scalar branch that guards its variance, read at an
  index.

  The sum over the 128 entries of a node's row starts from the float zero, which is the real 0, so at
  node (b, n) it is the plain sum of the row.  The variance divides by 128.0 minus the integer 0
  converted to a float: the converted 0 is the real 0, so the divisor is the float 128.0, which is the
  real 128 and is above zero; the comparison "divisor > 0" is therefore true, and the selection it
  guards keeps the quotient and never the not-a-number literal.
-/
import proofs.«161234_j46815143526781_2_alg».proof.ReferenceIdeal
import Idealize.ShloMosaic.Lib.IdealHost
import Idealize.ShloMosaic.Lib.ValueLayout

noncomputable section

open scoped BigOperators

namespace Cert.ReferenceIdeal.RefValue

open Idealize.ShloMosaic Idealize.ShloMosaic.ValueIdx Cert.ReferenceIdeal

/-- The sum over the last axis from the float zero, at node (b, n): the sum of the node's 128 entries. -/
theorem rowReduce_apply (r : FVec Ideal S4x65536x128 .f32) (hR : S4x65536x128.ReducesTo [2] S4x65536)
    (hS : 0 < S_.numel) (b : Fin 4) (n : Fin 65536) :
    Host.reduceAdd (F := Ideal) r (constant (F := Ideal) S_ .f32 0x00000000#32) hR hS (ix2 b n)
      = ∑ j : Fin 128, r (ix3 b n j) := by
  rw [hostReduceAdd_apply, Ideal.hostReduceAdd_single hR (by decide), constant_apply, Ideal.ofBits_zero_f32,
    zero_add]
  refine Finset.sum_congr rfl fun k _ => ?_
  exact congrArg r (funext fun a => Fin.ext (by
    match a with
    | ⟨0, _⟩ => rfl
    | ⟨1, _⟩ => rfl
    | ⟨2, _⟩ => rfl))

/-- The float 128.0 is the real 128. -/
theorem ofBits_128 : Ideal.ofBits .f32 0x43000000#32 = ((128 : ℝ) : EReal) := by
  simp [Ideal.ofBits, Ideal.ieee, -EReal.coe_mul]; norm_num

/-- The float 128.0 is above zero. -/
theorem ofBits_128_pos : (0 : EReal) < Ideal.ofBits .f32 0x43000000#32 := by
  rw [ofBits_128]; exact EReal.coe_pos.mpr (by norm_num)

/-- The variance's divisor, 128.0 minus the converted integer 0, is the float 128.0. -/
theorem divisor_apply (i : S_.Idx) :
    subf (constant (F := Ideal) S_ .f32 0x43000000#32) (sitofp .f32 (constantI S_ 32 0#32)) i
      = Ideal.ofBits .f32 0x43000000#32 := by
  rw [subf_apply, constant_apply, sitofp_apply, constantI_apply]
  show Ideal.ofBits .f32 0x43000000#32 - (((0#32 : BitVec 32).toInt : ℝ) : EReal) = _
  simp

/-- "The divisor is above the float zero" is the true bit. -/
theorem divisor_pos_apply (i : S_.Idx) :
    cmpf .ogt (subf (constant (F := Ideal) S_ .f32 0x43000000#32) (sitofp .f32 (constantI S_ 32 0#32)))
      (constant (F := Ideal) S_ .f32 0x00000000#32) i = 1#1 := by
  rw [cmpf_apply, divisor_apply, constant_apply, Ideal.ofBits_zero_f32, Ideal.cmpf_def]
  unfold Ideal.cmp
  simp [ofBits_128_pos]

end Cert.ReferenceIdeal.RefValue

end
-- ==== Proof.RefValue.lean ====
/-
  The reference's value is the specification.

  The reference's result is a composition of named stages of its seven argument arrays.  Read at node
  (b, n), entry j, outermost stage first, every stage is a function of one row of 128 entries (or of the
  three rows around node n): the clamp, the scale and shift by gamma and beta, the product with the
  reciprocal square root, the deviation from the mean and the mean squared deviation are the
  specification's `norm` of the row; that row is the node's own row plus the second product, which is
  the specification's `resid`; the hidden row inside it is the first product over the 384 entries of the
  previous, own and next rows side by side, which is the specification's `hidden` of its `cat`.
-/
import proofs.«161234_j46815143526781_2_alg».proof.Proof.RefTerm
import proofs.«161234_j46815143526781_2_alg».proof.Proof.Spec
import proofs.«161234_j46815143526781_2_alg».proof.Proof.RefStagesLayout
import proofs.«161234_j46815143526781_2_alg».proof.Proof.RefStagesDot
import proofs.«161234_j46815143526781_2_alg».proof.Proof.RefStagesBcast
import proofs.«161234_j46815143526781_2_alg».proof.Proof.RefStagesSum

noncomputable section

open scoped BigOperators

namespace Cert.ReferenceIdeal.RefValue

open Idealize.ShloMosaic Idealize.ShloMosaic.ValueIdx Cert.ReferenceIdeal Cert.ReferenceIdeal.RefTerm

/-! ## Each stage at an index -/

/-- The forward shift at node n is the input at the circular predecessor of n. -/
theorem rollPrev_apply (x : FVec Ideal S4x65536x128 .f32) (b : Fin 4) (n : Fin 65536) (c : Fin 128) :
    rollPrev (F := Ideal) x (ix3 b n c) = x (ix3 b (Cert.Spec.prevN n) c) :=
  rollFwd_apply x _ _ _ b n c

/-- The backward shift at node n is the input at the circular successor of n. -/
theorem rollNext_apply (x : FVec Ideal S4x65536x128 .f32) (b : Fin 4) (n : Fin 65536) (c : Fin 128) :
    rollNext (F := Ideal) x (ix3 b n c) = x (ix3 b (Cert.Spec.nextN n) c) :=
  rollBack_apply x _ _ _ b n c

/-- Three arrays side by side, at node (b, m): the three rows side by side. -/
theorem cat3T_apply (p c n : FVec Ideal S4x65536x128 .f32) (b : Fin 4) (m : Fin 65536) (k : Fin 384) :
    cat3 (F := Ideal) p c n (ix3 b m k)
      = Cert.Spec.cat (fun e => p (ix3 b m e)) (fun e => c (ix3 b m e)) (fun e => n (ix3 b m e)) k :=
  cat3_apply p c n _ b m k

/-- A row repeated at every node. -/
theorem rowBc_apply (v : FVec Ideal S128 .f32) (b : Fin 4) (n : Fin 65536) (j : Fin 128) :
    rowBc (F := Ideal) v (ix3 b n j) = v (ix1 j) :=
  bcRow_apply v _ _ b n j

/-- A value per node repeated along the row. -/
theorem nodeBc_apply (v : FVec Ideal S4x65536x1 .f32) (b : Fin 4) (n : Fin 65536) (j : Fin 128) :
    nodeBc (F := Ideal) v (ix3 b n j) = v (ix3 b n (0 : Fin 1)) :=
  bcNode_apply v _ b n j

/-- A scalar repeated once per node. -/
theorem scalBc_apply (v : FVec Ideal S_ .f32) (i : S4x65536x1.Idx) : scalBc (F := Ideal) v i = v ix0 :=
  bcScalNode_apply v _ i

/-- The clamp at zero, entry by entry: the float zero is the real 0. -/
theorem reluT_apply (a : FVec Ideal S4x65536x128 .f32) (i : S4x65536x128.Idx) :
    reluT (F := Ideal) a i = max (a i) 0 := by
  unfold reluT
  rw [maximumf_apply, bcScalAll_apply, constant_apply, Ideal.ofBits_zero_f32]

/-- The reciprocal square root, entry by entry. -/
theorem hostRsqrt_apply {s : Shape} {φ : FTy} (a : FVec Ideal s φ) (i : s.Idx) :
    Host.rsqrt a i = Ideal.rsqrt (a i) := rfl

/-- The hidden array at node (b, n), entry j: the node's 384 entries against column j of W1, plus b1 at j,
    clamped at zero. -/
theorem hiddenT_apply (c3 : FVec Ideal S4x65536x384 .f32) (W1 : FVec Ideal S384x128 .f32) (b1 : FVec Ideal S128 .f32)
    (b : Fin 4) (n : Fin 65536) (j : Fin 128) :
    hiddenT (F := Ideal) c3 W1 b1 (ix3 b n j)
      = max ((∑ k : Fin 384, c3 (ix3 b n k) * W1 (ix2 k j)) + b1 (ix1 j)) 0 := by
  unfold hiddenT
  rw [reluT_apply, addf_apply, dotA_apply, rowBc_apply]

/-- The normalised array's operand at node (b, n), entry j: the node's own entry plus (the hidden row against
    column j of W2, plus b2 at j). -/
theorem residT_apply (x h : FVec Ideal S4x65536x128 .f32) (W2 : FVec Ideal S128x128 .f32) (b2 : FVec Ideal S128 .f32)
    (b : Fin 4) (n : Fin 65536) (j : Fin 128) :
    residT (F := Ideal) x h W2 b2 (ix3 b n j)
      = x (ix3 b n j) + ((∑ k : Fin 128, h (ix3 b n k) * W2 (ix2 k j)) + b2 (ix1 j)) := by
  unfold residT
  rw [addf_apply, addf_apply, dotB_apply, rowBc_apply]

/-- The sum over a node's row. -/
theorem rowSum_apply (r : FVec Ideal S4x65536x128 .f32) (b : Fin 4) (n : Fin 65536) :
    rowSum (F := Ideal) r (ix3 b n (0 : Fin 1)) = ∑ j : Fin 128, r (ix3 b n j) := by
  unfold rowSum
  rw [bcKeep_apply, rowReduce_apply]

/-- The mean over a node's row is the specification's mean of that row. -/
theorem meanT_apply (r : FVec Ideal S4x65536x128 .f32) (b : Fin 4) (n : Fin 65536) :
    meanT (F := Ideal) r (ix3 b n (0 : Fin 1)) = Cert.Spec.mean (fun j => r (ix3 b n j)) := by
  unfold meanT Cert.Spec.mean
  rw [hostDivf_apply, rowSum_apply, scalBc_apply, constant_apply]

/-- The deviation from the mean is the specification's deviation of the row. -/
theorem devT_apply (r : FVec Ideal S4x65536x128 .f32) (b : Fin 4) (n : Fin 65536) (j : Fin 128) :
    devT (F := Ideal) r (ix3 b n j) = Cert.Spec.dev (fun j => r (ix3 b n j)) j := by
  unfold devT Cert.Spec.dev
  rw [subf_apply, nodeBc_apply, meanT_apply]

/-- The mean squared deviation: its divisor is the float 128.0 and the guard on it is true, so it is the
    specification's mean of the squared deviations of the row. -/
theorem varT_apply (r : FVec Ideal S4x65536x128 .f32) (b : Fin 4) (n : Fin 65536) :
    varT (F := Ideal) r (ix3 b n (0 : Fin 1))
      = Cert.Spec.mean (fun i => Cert.Spec.dev (fun j => r (ix3 b n j)) i * Cert.Spec.dev (fun j => r (ix3 b n j)) i) := by
  unfold varT divisor
  rw [select_apply, bcScalNode_apply, divisor_pos_apply, select_one, hostDivf_apply, rowSum_apply, scalBc_apply,
    divisor_apply]
  unfold Cert.Spec.mean
  simp only [mulf_apply, devT_apply]

/-- The whole normalisation at node (b, n), entry j, is the specification's `norm` of the node's row. -/
theorem normT_apply (r : FVec Ideal S4x65536x128 .f32) (g be : FVec Ideal S128 .f32)
    (b : Fin 4) (n : Fin 65536) (j : Fin 128) :
    normT (F := Ideal) r g be (ix3 b n j)
      = Cert.Spec.norm (fun j => r (ix3 b n j)) (fun h => g (ix1 h)) (fun h => be (ix1 h)) j := by
  unfold normT
  rw [reluT_apply, addf_apply, mulf_apply, mulf_apply, devT_apply, nodeBc_apply, rowBc_apply, rowBc_apply,
    hostRsqrt_apply, addf_apply, varT_apply, scalBc_apply, constant_apply]
  rfl

/-! ## The rows that are normalised -/

/-- The hidden array built from the shifted, own and shifted arrays is the specification's hidden row of the
    previous, own and next rows. -/
theorem hidden_eq (x : FVec Ideal S4x65536x128 .f32) (W1 : FVec Ideal S384x128 .f32) (b1 : FVec Ideal S128 .f32)
    (b : Fin 4) (n : Fin 65536) (k : Fin 128) :
    hiddenT (F := Ideal) (cat3 (rollPrev x) x (rollNext x)) W1 b1 (ix3 b n k)
      = Cert.Spec.hidden (fun c => x (ix3 b (Cert.Spec.prevN n) c)) (fun c => x (ix3 b n c))
          (fun c => x (ix3 b (Cert.Spec.nextN n) c)) (fun k h => W1 (ix2 k h)) (fun h => b1 (ix1 h)) k := by
  rw [hiddenT_apply]
  unfold Cert.Spec.hidden
  simp only [cat3T_apply, rollPrev_apply, rollNext_apply]

/-- The operand of the normalisation is the specification's `resid` of the three rows. -/
theorem resid_eq (x : FVec Ideal S4x65536x128 .f32) (W1 : FVec Ideal S384x128 .f32) (b1 : FVec Ideal S128 .f32)
    (W2 : FVec Ideal S128x128 .f32) (b2 : FVec Ideal S128 .f32) (b : Fin 4) (n : Fin 65536) (j : Fin 128) :
    residT (F := Ideal) x (hiddenT (cat3 (rollPrev x) x (rollNext x)) W1 b1) W2 b2 (ix3 b n j)
      = Cert.Spec.resid (fun c => x (ix3 b (Cert.Spec.prevN n) c)) (fun c => x (ix3 b n c))
          (fun c => x (ix3 b (Cert.Spec.nextN n) c)) (fun k h => W1 (ix2 k h)) (fun h => b1 (ix1 h))
          (fun k h => W2 (ix2 k h)) (fun h => b2 (ix1 h)) j := by
  rw [residT_apply]
  unfold Cert.Spec.resid
  simp only [hidden_eq]

/-! ## The result -/

/-- The reference's result is the specification's array, entry by entry. -/
theorem res_eq (x : FVec Ideal S4x65536x128 .f32) (W1 : FVec Ideal S384x128 .f32) (b1 : FVec Ideal S128 .f32)
    (W2 : FVec Ideal S128x128 .f32) (b2 g be : FVec Ideal S128 .f32) :
    Cert.ReferenceIdeal.RefTerm.res (F := Ideal) x W1 b1 W2 b2 g be = Cert.Spec.G x W1 b1 W2 b2 g be := by
  funext i
  obtain ⟨b, n, j, rfl⟩ : ∃ (b : Fin 4) (n : Fin 65536) (j : Fin 128), i = ix3 b n j := ⟨i 0, i 1, i 2, eq_ix3 i⟩
  rw [Cert.Spec.G_ix3]
  unfold Cert.ReferenceIdeal.RefTerm.res Cert.Spec.Gat Cert.Spec.rowOut
  rw [normT_apply]
  congr 1
  funext j'
  exact resid_eq x W1 b1 W2 b2 b n j'

end Cert.ReferenceIdeal.RefValue

end
-- ==== Proof.lean ====
/-
  A circular three-neighbour message-passing block, tiled, against its plain whole-array form.

  Every node (b, n) of x : [4, 65536, 128] takes its own row and its two circular neighbours' rows, lays them side by
  side, multiplies them into W1 with bias b1 and clamps at zero, multiplies that into W2 with bias b2, adds the node's
  own row, normalises the 128 entries, scales by gamma, shifts by beta and clamps at zero (Proof/Spec.lean writes this
  once, as a function G of the argument arrays).

  The kernel computes it tile by tile: 2048 consecutive rows at a time, the in-tile neighbours by rotating the tile by
  one row either way, the two rows that fall outside the tile patched in from the eight rows before and the eight rows
  after it.  Three of its windows read the one array x, so the array is held at three shares that make up the whole
  (Proof/KIRun.lean, Proof/KBRun.lean).  What a grid point writes back is its tile of G (Proof/KValue.lean reads the
  body's arithmetic at an index; Proof/KIValue.lean places each input block in its array), and the tiles cover the
  result.  The reference computes G over the whole arrays at once: its rolls are the circular neighbours, its two
  contractions the same sums in another order of terms, its variance the mean squared deviation (Proof/RefRun.lean is
  its run, Proof/RefValue.lean reads the run's term at an index).  At the exact reals with ±∞ the two sides are one
  function, index by index; no law beyond reading sums as sums is needed, so the inputs' finiteness is never opened.
-/
import proofs.«161234_j46815143526781_2_alg».proof.Defs
import proofs.«161234_j46815143526781_2_alg».proof.Proof.Gen.Kernel
import proofs.«161234_j46815143526781_2_alg».proof.Proof.Gen.KernelIdeal
import proofs.«161234_j46815143526781_2_alg».proof.Proof.Gen.ReferenceIdeal
import proofs.«161234_j46815143526781_2_alg».proof.Proof.Gen.Pre_finite_inputs
import proofs.«161234_j46815143526781_2_alg».proof.Proof.KBRun
import proofs.«161234_j46815143526781_2_alg».proof.Proof.KIValue
import proofs.«161234_j46815143526781_2_alg».proof.Proof.RefRun
import proofs.«161234_j46815143526781_2_alg».proof.Proof.RefValue

noncomputable section

namespace Cert.Proof

open Idealize.ShloMosaic Idealize.ShloMosaic.TcCoe Idealize.SL.Sem

/-- The kernel's program as printed runs to the end, faults nowhere and leaves its arguments unchanged. -/
theorem frame_k : Cert.frame_Kernel := fun m ρ _ => Cert.Kernel.Hand.frame m ρ

/-- The same of its reading over the exact reals. -/
theorem frame_ki : Cert.frame_KernelIdeal := fun m ρ _ => Cert.KernelIdeal.Hand.frame m ρ

/-- The reference's run with its result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both programs end with the result array at G of the argument arrays, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.HandValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2.1, (hagree c).2.2.2.2.2.2]
  exact Cert.ReferenceIdeal.RefValue.res_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
